-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S1600000 : Shape := ⟨1, ![1600000]⟩
abbrev S100000 : Shape := ⟨1, ![100000]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S100000x16 .f32) (main_arg1 : IVec S1600000 32) (main_arg2 : IVec S1600000 32) (main_arg3 : FVec F S1600000 .f32) (main_arg4 : FVec F S100000 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000 .f32 := Host.absf main_arg4
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S100000x16 : Shape := ⟨2, ![100000, 16]⟩
abbrev S1600000 : Shape := ⟨1, ![1600000]⟩
abbrev S100000 : Shape := ⟨1, ![100000]⟩
abbrev S1600000x1 : Shape := ⟨2, ![1600000, 1]⟩
abbrev S_ : Shape := ⟨0, ![]⟩
abbrev S1600000x16 : Shape := ⟨2, ![1600000, 16]⟩
abbrev S100000x1 : Shape := ⟨2, ![100000, 1]⟩
abbrev S100000x128 : Shape := ⟨2, ![100000, 128]⟩
abbrev S10000x16 : Shape := ⟨2, ![10000, 16]⟩
abbrev S10000x1 : Shape := ⟨2, ![10000, 1]⟩
abbrev S10000x128 : Shape := ⟨2, ![10000, 128]⟩
abbrev S10000x8 : Shape := ⟨2, ![10000, 8]⟩
abbrev S100000x16x8 : Shape := ⟨3, ![100000, 16, 8]⟩
abbrev S1600000x1x1 : Shape := ⟨3, ![1600000, 1, 1]⟩
abbrev S1600000x16x8 : Shape := ⟨3, ![1600000, 16, 8]⟩

abbrev nBuf : Space → Nat
  | .hbm => 40
  | .vmem => 6
  | .smem => 0
  | _ => 0

abbrev bufTy : (tb : Table) → Fin (tcTables nBuf tb) → BufTy
  | .hbm, ⟨0, _⟩ => ⟨S100000x16, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000, .f32⟩
  | .hbm, ⟨5, _⟩ => ⟨S1600000x1, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x16, .f32⟩
  | .hbm, ⟨15, _⟩ => ⟨S1600000x16, .f32⟩
  | .hbm, ⟨16, _⟩ => ⟨S1600000x16, .f32⟩
  | .hbm, ⟨17, _⟩ => ⟨S_, .f32⟩
  | .hbm, ⟨18, _⟩ => ⟨S100000x16, .f32⟩
  | .hbm, ⟨19, _⟩ => ⟨S1600000x1, .i32⟩
  | .hbm, ⟨20, _⟩ => ⟨S100000x16, .f32⟩
  | .hbm, ⟨21, _⟩ => ⟨S100000x1, .f32⟩
  | .hbm, ⟨22, _⟩ => ⟨S100000x128, .f32⟩
  | .hbm, ⟨23, _⟩ => ⟨S100000x16x8, .f32⟩
  | .hbm, ⟨24, _⟩ => ⟨S1600000x1x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x16x8, .f32⟩
  | .hbm, ⟨34, _⟩ => ⟨S1600000x16x8, .f32⟩
  | .hbm, ⟨35, _⟩ => ⟨S1600000x16x8, .f32⟩
  | .hbm, ⟨36, _⟩ => ⟨S_, .f32⟩
  | .hbm, ⟨37, _⟩ => ⟨S100000x16x8, .f32⟩
  | .hbm, ⟨38, _⟩ => ⟨S1600000x1, .i32⟩
  | .hbm, ⟨39, _⟩ => ⟨S100000x16x8, .f32⟩
  | .local _ .vmem, ⟨0, _⟩ => ⟨S10000x16, .f32⟩
  | .local _ .vmem, ⟨1, _⟩ => ⟨S10000x16, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  concatenates_S10000x1_S10000x1_S10000x1_S10000x1_S10000x1_S10000x1_S10000x1_S10000x1_S10000x8_d1 : Shape.Concatenates [S10000x1, S10000x1, S10000x1, S10000x1, S10000x1, S10000x1, S10000x1, S10000x1] S10000x8 1
  slices_S10000x16_o0_0_S10000x1 : S10000x16.Slices ![0, 0] S10000x1
  broadcasts_S10000x1_S10000x8 : S10000x1.Broadcasts S10000x8
  inb_S10000x128_S10000x8_0_0 : ∀ a, (![0, 0] : Fin 2 → Nat) a + S10000x8.size a ≤ S10000x128.size a
  h_S10000x8 : 0 < S10000x8.numel
  slices_S10000x16_o0_1_S10000x1 : S10000x16.Slices ![0, 1] S10000x1
  inb_S10000x128_S10000x8_0_8 : ∀ a, (![0, 8] : Fin 2 → Nat) a + S10000x8.size a ≤ S10000x128.size a
  slices_S10000x16_o0_2_S10000x1 : S10000x16.Slices ![0, 2] S10000x1
  inb_S10000x128_S10000x8_0_16 : ∀ a, (![0, 16] : Fin 2 → Nat) a + S10000x8.size a ≤ S10000x128.size a
  slices_S10000x16_o0_3_S10000x1 : S10000x16.Slices ![0, 3] S10000x1
  inb_S10000x128_S10000x8_0_24 : ∀ a, (![0, 24] : Fin 2 → Nat) a + S10000x8.size a ≤ S10000x128.size a
  slices_S10000x16_o0_4_S10000x1 : S10000x16.Slices ![0, 4] S10000x1
  inb_S10000x128_S10000x8_0_32 : ∀ a, (![0, 32] : Fin 2 → Nat) a + S10000x8.size a ≤ S10000x128.size a
  slices_S10000x16_o0_5_S10000x1 : S10000x16.Slices ![0, 5] S10000x1
  inb_S10000x128_S10000x8_0_40 : ∀ a, (![0, 40] : Fin 2 → Nat) a + S10000x8.size a ≤ S10000x128.size a
  slices_S10000x16_o0_6_S10000x1 : S10000x16.Slices ![0, 6] S10000x1
  inb_S10000x128_S10000x8_0_48 : ∀ a, (![0, 48] : Fin 2 → Nat) a + S10000x8.size a ≤ S10000x128.size a
  slices_S10000x16_o0_7_S10000x1 : S10000x16.Slices ![0, 7] S10000x1
  inb_S10000x128_S10000x8_0_56 : ∀ a, (![0, 56] : Fin 2 → Nat) a + S10000x8.size a ≤ S10000x128.size a
  slices_S10000x16_o0_8_S10000x1 : S10000x16.Slices ![0, 8] S10000x1
  inb_S10000x128_S10000x8_0_64 : ∀ a, (![0, 64] : Fin 2 → Nat) a + S10000x8.size a ≤ S10000x128.size a
  slices_S10000x16_o0_9_S10000x1 : S10000x16.Slices ![0, 9] S10000x1
  inb_S10000x128_S10000x8_0_72 : ∀ a, (![0, 72] : Fin 2 → Nat) a + S10000x8.size a ≤ S10000x128.size a
  slices_S10000x16_o0_10_S10000x1 : S10000x16.Slices ![0, 10] S10000x1
  inb_S10000x128_S10000x8_0_80 : ∀ a, (![0, 80] : Fin 2 → Nat) a + S10000x8.size a ≤ S10000x128.size a
  slices_S10000x16_o0_11_S10000x1 : S10000x16.Slices ![0, 11] S10000x1
  inb_S10000x128_S10000x8_0_88 : ∀ a, (![0, 88] : Fin 2 → Nat) a + S10000x8.size a ≤ S10000x128.size a
  slices_S10000x16_o0_12_S10000x1 : S10000x16.Slices ![0, 12] S10000x1
  inb_S10000x128_S10000x8_0_96 : ∀ a, (![0, 96] : Fin 2 → Nat) a + S10000x8.size a ≤ S10000x128.size a
  slices_S10000x16_o0_13_S10000x1 : S10000x16.Slices ![0, 13] S10000x1
  inb_S10000x128_S10000x8_0_104 : ∀ a, (![0, 104] : Fin 2 → Nat) a + S10000x8.size a ≤ S10000x128.size a
  slices_S10000x16_o0_14_S10000x1 : S10000x16.Slices ![0, 14] S10000x1
  inb_S10000x128_S10000x8_0_112 : ∀ a, (![0, 112] : Fin 2 → Nat) a + S10000x8.size a ≤ S10000x128.size a
  slices_S10000x16_o0_15_S10000x1 : S10000x16.Slices ![0, 15] S10000x1
  inb_S10000x128_S10000x8_0_120 : ∀ a, (![0, 120] : Fin 2 → Nat) a + S10000x8.size a ≤ S10000x128.size a
  shapeCasts_S100000x128_S100000x16x8 : S100000x128.ShapeCasts S100000x16x8
  bcast_S1600000_S1600000x1x1_0 : S1600000.BroadcastsInDim S1600000x1x1 (![0] : Fin 1 → Fin S1600000x1x1.rank)
  bcast_S1600000x1x1_S1600000x16x8_0_1_2 : S1600000x1x1.BroadcastsInDim S1600000x16x8 (![0, 1, 2] : Fin 3 → Fin S1600000x16x8.rank)
  bcast_S_S100000x16x8 : S_.BroadcastsInDim S100000x16x8 (![] : Fin 0 → Fin S100000x16x8.rank)
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  gather_S100000x16x8_S1600000x1_S1600000x16x8_12_0_n_n_0_1_1168_wf : GatherDims.WF S100000x16x8 S1600000x1 S1600000x16x8 [1, 2] [0] [] [0] [] 1 ![1, 16, 8]
  scatter_S100000x16x8_S1600000x1_S1600000x16x8_12_0_0_1_wf : ScatterDims.WF S100000x16x8 S1600000x1 S1600000x16x8 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def gather_S100000x16x8_S1600000x1_S1600000x16x8_12_0_n_n_0_1_1168 : GatherDims S100000x16x8 S1600000x1 S1600000x16x8 where
  offsetDims := [1, 2]
  collapsedSliceDims := [0]
  operandBatchingDims := []
  startIndicesBatchingDims := []
  startIndexMap := [0]
  indexVectorDim := 1
  sliceSizes := ![1, 16, 8]
  wf := gather_S100000x16x8_S1600000x1_S1600000x16x8_12_0_n_n_0_1_1168_wf
def scatter_S100000x16x8_S1600000x1_S1600000x16x8_12_0_0_1 : ScatterDims S100000x16x8 S1600000x1 S1600000x16x8 where
  updateWindowDims := [1, 2]
  insertedWindowDims := [0]
  scatterDimsToOperandDims := [0]
  indexVectorDim := 1
  wf := scatter_S100000x16x8_S1600000x1_S1600000x16x8_12_0_0_1_wf

abbrev win0_0 : Pipeline.Window sig grid0 :=
  Pipeline.Window.ofSpec (Memref.whole main_v12) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x16 : Shape := ⟨2, ![100000, 16]⟩
abbrev S1600000 : Shape := ⟨1, ![1600000]⟩
abbrev S100000 : Shape := ⟨1, ![100000]⟩
abbrev S9 : Shape := ⟨1, ![9]⟩
abbrev S_ : Shape := ⟨0, ![]⟩
abbrev S1600000x1 : Shape := ⟨2, ![1600000, 1]⟩
abbrev S1600000x16 : Shape := ⟨2, ![1600000, 16]⟩
abbrev S100000x1 : Shape := ⟨2, ![100000, 1]⟩
abbrev S1x9 : Shape := ⟨2, ![1, 9]⟩
abbrev S100000x9 : Shape := ⟨2, ![100000, 9]⟩
abbrev S100000x8 : Shape := ⟨2, ![100000, 8]⟩
abbrev S100000x16x1 : Shape := ⟨3, ![100000, 16, 1]⟩
abbrev S100000x1x8 : Shape := ⟨3, ![100000, 1, 8]⟩
abbrev S100000x16x8 : Shape := ⟨3, ![100000, 16, 8]⟩
abbrev S100000x128 : Shape := ⟨2, ![100000, 128]⟩
abbrev S1600000x128 : Shape := ⟨2, ![1600000, 128]⟩

abbrev nBuf : Space → Nat
  | .hbm => 150
  | .vmem => 0
  | .smem => 0
  | _ => 0

abbrev hbmTy0_0 (i : Nat) : BufTy := match i % 128 with
  | 0 => ⟨S100000x16, .f32⟩
  | 1 => ⟨S1600000, .i32⟩
  | 2 => ⟨S1600000, .i32⟩
  | 3 => ⟨S1600000, .f32⟩
  | 4 => ⟨S100000, .f32⟩
  | 5 => ⟨S9, .i32⟩
  | 6 => ⟨S_, .i32⟩
  | 7 => ⟨S_, .i32⟩
  | 8 => ⟨S_, .i1⟩
  | 9 => ⟨S_, .i32⟩
  | 10 => ⟨S9, .i32⟩
  | 11 => ⟨S9, .i1⟩
  | 12 => ⟨S9, .i1⟩
  | 13 => ⟨S9, .i1⟩
  | 14 => ⟨S_, .i32⟩
  | 15 => ⟨S_, .i32⟩
  | 16 => ⟨S9, .i32⟩
  | 17 => ⟨S9, .i32⟩
  | 18 => ⟨S9, .i32⟩
  | 19 => ⟨S_, .i32⟩
  | 20 => ⟨S9, .i32⟩
  | 21 => ⟨S9, .i32⟩
  | 22 => ⟨S_, .i32⟩
  | 23 => ⟨S9, .i32⟩
  | 24 => ⟨S9, .i32⟩
  | 25 => ⟨S_, .i32⟩
  | 26 => ⟨S9, .i32⟩
  | 27 => ⟨S9, .i1⟩
  | 28 => ⟨S9, .i32⟩
  | 29 => ⟨S_, .i32⟩
  | 30 => ⟨S_, .i32⟩
  | 31 => ⟨S_, .i32⟩
  | 32 => ⟨S_, .i32⟩
  | 33 => ⟨S9, .i32⟩
  | 34 => ⟨S9, .i32⟩
  | 35 => ⟨S_, .i32⟩
  | 36 => ⟨S9, .i32⟩
  | 37 => ⟨S9, .i32⟩
  | 38 => ⟨S9, .i32⟩
  | 39 => ⟨S9, .i32⟩
  | 40 => ⟨S_, .i32⟩
  | 41 => ⟨S9, .i32⟩
  | 42 => ⟨S9, .i1⟩
  | 43 => ⟨S9, .i32⟩
  | 44 => ⟨S_, .i32⟩
  | 45 => ⟨S_, .i32⟩
  | 46 => ⟨S9, .i32⟩
  | 47 => ⟨S9, .i32⟩
  | 48 => ⟨S_, .i32⟩
  | 49 => ⟨S9, .i32⟩
  | 50 => ⟨S9, .i32⟩
  | 51 => ⟨S9, .i32⟩
  | 52 => ⟨S9, .i32⟩
  | 53 => ⟨S_, .i32⟩
  | 54 => ⟨S9, .i32⟩
  | 55 => ⟨S9, .i1⟩
  | 56 => ⟨S9, .i32⟩
  | 57 => ⟨S_, .i32⟩
  | 58 => ⟨S_, .i32⟩
  | 59 => ⟨S9, .i32⟩
  | 60 => ⟨S9, .i32⟩
  | 61 => ⟨S_, .i32⟩
  | 62 => ⟨S9, .i32⟩
  | 63 => ⟨S9, .i32⟩
  | 64 => ⟨S9, .i32⟩
  | 65 => ⟨S9, .i32⟩
  | 66 => ⟨S_, .i32⟩
  | 67 => ⟨S9, .i32⟩
  | 68 => ⟨S9, .i1⟩
  | 69 => ⟨S9, .i32⟩
  | 70 => ⟨S_, .i32⟩
  | 71 => ⟨S_, .i32⟩
  | 72 => ⟨S9, .i32⟩
  | 73 => ⟨S9, .i32⟩
  | 74 => ⟨S_, .i32⟩
  | 75 => ⟨S9, .i32⟩
  | 76 => ⟨S9, .i32⟩
  | 77 => ⟨S9, .i32⟩
  | 78 => ⟨S9, .i32⟩
  | 79 => ⟨S_, .i32⟩
  | 80 => ⟨S9, .i32⟩
  | 81 => ⟨S9, .i1⟩
  | 82 => ⟨S9, .i32⟩
  | 83 => ⟨S_, .i32⟩
  | 84 => ⟨S_, .i32⟩
  | 85 => ⟨S9, .i32⟩
  | 86 => ⟨S9, .i32⟩
  | 87 => ⟨S_, .i32⟩
  | 88 => ⟨S9, .i32⟩
  | 89 => ⟨S9, .i32⟩
  | 90 => ⟨S9, .i32⟩
  | 91 => ⟨S9, .i32⟩
  | 92 => ⟨S_, .i32⟩
  | 93 => ⟨S9, .i32⟩
  | 94 => ⟨S9, .i1⟩
  | 95 => ⟨S9, .i32⟩
  | 96 => ⟨S_, .i32⟩
  | 97 => ⟨S_, .i32⟩
  | 98 => ⟨S9, .i32⟩
  | 99 => ⟨S9, .i32⟩
  | 100 => ⟨S9, .f32⟩
  | 101 => ⟨S1600000x1, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x16, .f32⟩
  | 111 => ⟨S1600000x16, .f32⟩
  | 112 => ⟨S1600000x16, .f32⟩
  | 113 => ⟨S_, .f32⟩
  | 114 => ⟨S100000x16, .f32⟩
  | 115 => ⟨S1600000x1, .i32⟩
  | 116 => ⟨S100000x16, .f32⟩
  | 117 => ⟨S100000, .f32⟩
  | 118 => ⟨S100000, .f32⟩
  | 119 => ⟨S100000x1, .f32⟩
  | 120 => ⟨S1x9, .f32⟩
  | 121 => ⟨S100000x9, .f32⟩
  | 122 => ⟨S100000x9, .f32⟩
  | 123 => ⟨S100000x9, .f32⟩
  | 124 => ⟨S100000x8, .f32⟩
  | 125 => ⟨S100000x8, .f32⟩
  | 126 => ⟨S100000x8, .f32⟩
  | 127 => ⟨S100000x16x1, .f32⟩
  | _ => ⟨S100000x16, .f32⟩

abbrev hbmTy0_1 (i : Nat) : BufTy := match i % 128 with
  | 0 => ⟨S100000x1x8, .f32⟩
  | 1 => ⟨S100000x16x8, .f32⟩
  | 2 => ⟨S100000x16x8, .f32⟩
  | 3 => ⟨S100000x16x8, .f32⟩
  | 4 => ⟨S100000x128, .f32⟩
  | 5 => ⟨S1600000x1, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x128, .f32⟩
  | 15 => ⟨S1600000x128, .f32⟩
  | 16 => ⟨S1600000x128, .f32⟩
  | 17 => ⟨S_, .f32⟩
  | 18 => ⟨S100000x128, .f32⟩
  | 19 => ⟨S1600000x1, .i32⟩
  | 20 => ⟨S100000x128, .f32⟩
  | 21 => ⟨S100000x16x8, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_c_0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_c_3 : Ref sig .tc := ⟨.hbm, 15, rfl⟩
abbrev main_call0_v0 : Ref sig .tc := ⟨.hbm, 16, rfl⟩
abbrev main_call0_v1 : Ref sig .tc := ⟨.hbm, 17, rfl⟩
abbrev main_v6 : Ref sig .tc := ⟨.hbm, 18, rfl⟩
abbrev main_c_4 : Ref sig .tc := ⟨.hbm, 19, rfl⟩
abbrev main_v7 : Ref sig .tc := ⟨.hbm, 20, rfl⟩
abbrev main_v8 : Ref sig .tc := ⟨.hbm, 21, rfl⟩
abbrev main_c_5 : Ref sig .tc := ⟨.hbm, 22, rfl⟩
abbrev main_v9 : Ref sig .tc := ⟨.hbm, 23, rfl⟩
abbrev main_v10 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_v11 : Ref sig .tc := ⟨.hbm, 28, rfl⟩
abbrev main_c_6 : Ref sig .tc := ⟨.hbm, 29, rfl⟩
abbrev main_c_7 : Ref sig .tc := ⟨.hbm, 30, rfl⟩
abbrev main_v12 : Ref sig .tc := ⟨.hbm, 31, rfl⟩
abbrev main_c_8 : Ref sig .tc := ⟨.hbm, 32, rfl⟩
abbrev main_v13 : Ref sig .tc := ⟨.hbm, 33, rfl⟩
abbrev main_v14 : Ref sig .tc := ⟨.hbm, 34, rfl⟩
abbrev main_c_9 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_v19 : Ref sig .tc := ⟨.hbm, 43, rfl⟩
abbrev main_v20 : Ref sig .tc := ⟨.hbm, 44, rfl⟩
abbrev main_c_10 : Ref sig .tc := ⟨.hbm, 45, rfl⟩
abbrev main_v21 : Ref sig .tc := ⟨.hbm, 46, rfl⟩
abbrev main_v22 : Ref sig .tc := ⟨.hbm, 47, rfl⟩
abbrev main_c_11 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_v27 : Ref sig .tc := ⟨.hbm, 56, rfl⟩
abbrev main_v28 : Ref sig .tc := ⟨.hbm, 57, rfl⟩
abbrev main_c_12 : Ref sig .tc := ⟨.hbm, 58, rfl⟩
abbrev main_v29 : Ref sig .tc := ⟨.hbm, 59, rfl⟩
abbrev main_v30 : Ref sig .tc := ⟨.hbm, 60, rfl⟩
abbrev main_c_13 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_call4_c : Ref sig .tc := ⟨.hbm, 66, rfl⟩
abbrev main_call4_v0 : Ref sig .tc := ⟨.hbm, 67, rfl⟩
abbrev main_call4_v1 : Ref sig .tc := ⟨.hbm, 68, rfl⟩
abbrev main_v35 : Ref sig .tc := ⟨.hbm, 69, rfl⟩
abbrev main_v36 : Ref sig .tc := ⟨.hbm, 70, rfl⟩
abbrev main_c_14 : Ref sig .tc := ⟨.hbm, 71, rfl⟩
abbrev main_v37 : Ref sig .tc := ⟨.hbm, 72, rfl⟩
abbrev main_v38 : Ref sig .tc := ⟨.hbm, 73, rfl⟩
abbrev main_c_15 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_call5_c : Ref sig .tc := ⟨.hbm, 79, rfl⟩
abbrev main_call5_v0 : Ref sig .tc := ⟨.hbm, 80, rfl⟩
abbrev main_call5_v1 : Ref sig .tc := ⟨.hbm, 81, rfl⟩
abbrev main_v43 : Ref sig .tc := ⟨.hbm, 82, rfl⟩
abbrev main_v44 : Ref sig .tc := ⟨.hbm, 83, rfl⟩
abbrev main_c_16 : Ref sig .tc := ⟨.hbm, 84, rfl⟩
abbrev main_v45 : Ref sig .tc := ⟨.hbm, 85, rfl⟩
abbrev main_v46 : Ref sig .tc := ⟨.hbm, 86, rfl⟩
abbrev main_c_17 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_call6_c : Ref sig .tc := ⟨.hbm, 92, rfl⟩
abbrev main_call6_v0 : Ref sig .tc := ⟨.hbm, 93, rfl⟩
abbrev main_call6_v1 : Ref sig .tc := ⟨.hbm, 94, rfl⟩
abbrev main_v51 : Ref sig .tc := ⟨.hbm, 95, rfl⟩
abbrev main_v52 : Ref sig .tc := ⟨.hbm, 96, rfl⟩
abbrev main_c_18 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_c_19 : Ref sig .tc := ⟨.hbm, 102, rfl⟩
abbrev main_v57 : Ref sig .tc := ⟨.hbm, 103, rfl⟩
abbrev main_v58 : Ref sig .tc := ⟨.hbm, 104, rfl⟩
abbrev main_c_20 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_c_21 : Ref sig .tc := ⟨.hbm, 134, rfl⟩
abbrev main_v86 : Ref sig .tc := ⟨.hbm, 135, rfl⟩
abbrev main_v87 : Ref sig .tc := ⟨.hbm, 136, rfl⟩
abbrev main_c_22 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_23 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩

abbrev nD : Nat := 1
abbrev τ : Topo := Topo.v7x

variable {F : FTy → Type} [FloatOps F]

class Facts₀ : Prop where
  bcast_S_S9 : S_.BroadcastsInDim S9 (![] : Fin 0 → Fin S9.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S9_S1x9_1 : S9.BroadcastsInDim S1x9 (![1] : Fin 1 → Fin S1x9.rank)
  bcast_S100000x1_S100000x9_0_1 : S100000x1.BroadcastsInDim S100000x9 (![0, 1] : Fin 2 → Fin S100000x9.rank)
  bcast_S1x9_S100000x9_0_1 : S1x9.BroadcastsInDim S100000x9 (![0, 1] : Fin 2 → Fin S100000x9.rank)
  slices_S100000x9_S100000x8_0_0 : S100000x9.Slices ![0, 0] S100000x8
  slices_S100000x9_S100000x8_0_1 : S100000x9.Slices ![0, 1] S100000x8
  bcast_S100000x16_S100000x16x1_0_1 : S100000x16.BroadcastsInDim S100000x16x1 (![0, 1] : Fin 2 → Fin S100000x16x1.rank)
  bcast_S100000x8_S100000x1x8_0_2 : S100000x8.BroadcastsInDim S100000x1x8 (![0, 2] : Fin 2 → Fin S100000x1x8.rank)
  bcast_S100000x16x1_S100000x16x8_0_1_2 : S100000x16x1.BroadcastsInDim S100000x16x8 (![0, 1, 2] : Fin 3 → Fin S100000x16x8.rank)
  bcast_S100000x1x8_S100000x16x8_0_1_2 : S100000x1x8.BroadcastsInDim S100000x16x8 (![0, 1, 2] : Fin 3 → Fin S100000x16x8.rank)
  shapeCasts_S100000x16x8_S100000x128 : S100000x16x8.ShapeCasts S100000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000x128_S100000x16x8 : S100000x128.ShapeCasts S100000x16x8
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Wavelet.lean ====
/-
  The wavelet weights of one node, as a function of its eigenvalue `e` alone.

  With `b = exp (0 - e)`, squaring `b` repeatedly gives the ladder `b, b², b⁴, …`: `sq b k = b ^ (2 ^ k)`.
  The weight of filter `k` is the difference of two consecutive rungs, `wav e k = sq b k - sq b (k + 1)`.
  The same weight written with a real power, `b ^ (2 ^ k : ℝ)`, is `wavPow`; `wav_eq_wavPow` says the two
  agree for EVERY extended real `e`: for a real `e` the base is a positive real and a real power with a natural
  exponent is the iterated product; at `e = ⊤` the base is `0` and both ladders are constantly `0`; at `e = ⊥`
  the base is `⊤` and both ladders are constantly `⊤`.
-/
import Idealize.ShloMosaic.PureOps.Ideal

noncomputable section

namespace Cert.Wavelet

open Idealize.ShloMosaic

/-- `k` squarings of `b`. -/
def sq (b : EReal) : ℕ → EReal
  | 0 => b
  | k + 1 => sq b k * sq b k

/-- Filter `k`'s weight at eigenvalue `e`, by repeated squaring of `exp (0 - e)`. -/
def wav (e : EReal) (k : ℕ) : EReal := sq (Ideal.exp (0 - e)) k - sq (Ideal.exp (0 - e)) (k + 1)

/-- The same weight with real powers of `exp (-e)` at the exponents `2 ^ k` and `2 ^ (k + 1)`. -/
def wavPow (e : EReal) (k : ℕ) : EReal :=
  Ideal.pow (Ideal.exp (-e)) (((2 ^ k : ℕ) : ℝ) : EReal) - Ideal.pow (Ideal.exp (-e)) (((2 ^ (k + 1) : ℕ) : ℝ) : EReal)

/-- Squaring a real `k` times is the power `2 ^ k`. -/
theorem sq_coe (b : ℝ) (k : ℕ) : sq (b : EReal) k = ((b ^ (2 ^ k) : ℝ) : EReal) := by
  induction k with
  | zero => simp [sq]
  | succ k ih =>
    rw [sq, ih, ← EReal.coe_mul, pow_succ 2 k, pow_mul, pow_two]

theorem sq_top (k : ℕ) : sq ⊤ k = ⊤ := by
  induction k with
  | zero => rfl
  | succ k ih => rw [sq, ih, EReal.top_mul_top]

/-- A real power of a positive real at a natural exponent is the iterated product. -/
theorem pow_natCast (b : ℝ) (n : ℕ) : Ideal.pow (b : EReal) ((n : ℝ) : EReal) = ((b ^ n : ℝ) : EReal) := by
  rw [Ideal.pow_coe_coe]
  exact congrArg _ (Real.rpow_natCast b n)

theorem two_pow_pos (k : ℕ) : (0 : EReal) < (((2 ^ k : ℕ) : ℝ) : EReal) := by
  exact_mod_cast Nat.pos_of_ne_zero (by positivity)

theorem wav_eq_wavPow (e : EReal) (k : ℕ) : wav e k = wavPow e k := by
  unfold wav wavPow
  induction e using EReal.rec with
  | bot =>
    have h0 : (0 : EReal) - ⊥ = ⊤ := by simp
    have h1 : -(⊥ : EReal) = ⊤ := by simp
    rw [h0, h1, Ideal.exp_top, sq_top, sq_top, Ideal.pow_top, Ideal.pow_top, if_pos (two_pow_pos k), if_pos (two_pow_pos (k + 1))]
  | coe r =>
    have h0 : (0 : EReal) - (r : EReal) = ((-r : ℝ) : EReal) := by
      rw [zero_sub]; rfl
    have h1 : -(r : EReal) = ((-r : ℝ) : EReal) := rfl
    rw [h0, h1, Ideal.exp_coe, sq_coe, sq_coe, pow_natCast, pow_natCast]
  | top =>
    have h0 : (0 : EReal) - ⊤ = ⊥ := by simp
    have h1 : -(⊤ : EReal) = ⊥ := by simp
    have hz : (0 : EReal) = ((0 : ℝ) : EReal) := rfl
    rw [h0, h1, Ideal.exp_bot, hz, sq_coe, sq_coe, pow_natCast, pow_natCast]

end Cert.Wavelet

end
-- ==== Proof.BlockEntry.lean ====
/-
  The output block of the kernel body, entry by entry.

  The body loads a left block `x0 : [10000, 16]` and an eigenvalue column `x1 : [10000, 1]`, forms the column
  `b = exp (0 - x1)`, squares it eight times, lays the eight differences of consecutive squarings side by side as the
  weights `w : [10000, 8]` (lane `k` of row `r` is `wav (x1 r) k`), and for `d = 0, …, 15` stores column `d` of the left
  block, repeated over eight lanes and multiplied by `w`, into columns `[8 d, 8 d + 8)` of the `[10000, 128]` output block.

  So the block it leaves is ONE function of the block index, `blockG`: entry `(r, c)` is `x0 (r, c / 8) * wav (x1 r) (c % 8)`.
  Each of the sixteen stored pieces agrees with `blockG` under its rectangle (`piece_ok`), the sixteen rectangles cover the
  block, hence the canonical contents of the stores are `blockG` (`out_eq`), and at column `8 d + k` that is
  `x0 (r, d) * wav (x1 r) k` (`out_entry`).
-/
import proofs.«162771_j42356967473550_2_alg».proof.Proof.Gen.KernelIdeal.Frame
import proofs.«162771_j42356967473550_2_alg».proof.Proof.Wavelet
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.BlockEntry

open Idealize.ShloMosaic Idealize.ShloMosaic.ValueIdx
open Cert.KernelIdeal Cert.KernelIdeal.Gen
open Cert.Wavelet

/-! ## The weight columns

The body forms `b = exp (0 - eig)` as a column, squares it eight times, and lays the eight differences of consecutive
squarings side by side. Here the same columns are named by recursion on the number of squarings, so that each can be
read at a row on its own. -/

/-- The base column `exp (0 - eig)`. -/
def base (x1 : Vec Ideal S10000x1 .f32) : FVec Ideal S10000x1 .f32 :=
  exp (subf (broadcast S10000x1 (Scalar.ofBits (F := Ideal) .f32 0x00000000#32)) (shapeCast S10000x1 x1 shapeCasts_S10000x1_S10000x1))

/-- The base column squared `k` times. -/
def rung (x1 : Vec Ideal S10000x1 .f32) : ℕ → FVec Ideal S10000x1 .f32
  | 0 => base x1
  | k + 1 => mulf (rung x1 k) (rung x1 k)

/-- The difference of two consecutive rungs: the column of filter `k`'s weights. -/
def col (x1 : Vec Ideal S10000x1 .f32) (k : ℕ) : FVec Ideal S10000x1 .f32 := subf (rung x1 k) (rung x1 (k + 1))

/-- Eight columns, as the pieces of a concatenation. -/
def cols8 (c : ℕ → FVec Ideal S10000x1 .f32) : List ((s : Shape) × (s.Idx → Ideal .f32)) :=
  [⟨S10000x1, c 0⟩, ⟨S10000x1, c 1⟩, ⟨S10000x1, c 2⟩, ⟨S10000x1, c 3⟩, ⟨S10000x1, c 4⟩, ⟨S10000x1, c 5⟩, ⟨S10000x1, c 6⟩, ⟨S10000x1, c 7⟩]

/-- The weights the body computes are the eight difference columns side by side (the body's value bindings substituted). -/
theorem pay5_eq (x1 : Vec Ideal S10000x1 .f32) :
    k0_pay5 (F := Ideal) x1 = concatenate S10000x8 1 (cols8 (col x1))
      concatenates_S10000x1_S10000x1_S10000x1_S10000x1_S10000x1_S10000x1_S10000x1_S10000x1_S10000x8_d1 := rfl

/-- The base column at row `r`. -/
theorem base_apply (x1 : Vec Ideal S10000x1 .f32) (r : Fin 10000) :
    base x1 (ix2 r 0) = Ideal.exp (0 - x1 (ix2 r 0)) := by
  unfold base
  rw [shapeCast_self]
  show Ideal.exp (Ideal.ofBits .f32 0x00000000#32 - x1 (ix2 r 0)) = _
  rw [Ideal.ofBits_zero_f32]

/-- Rung `k` at row `r` is `k` squarings of the base there. -/
theorem rung_apply (x1 : Vec Ideal S10000x1 .f32) (r : Fin 10000) (k : ℕ) :
    rung x1 k (ix2 r 0) = sq (Ideal.exp (0 - x1 (ix2 r 0))) k := by
  induction k with
  | zero => exact base_apply x1 r
  | succ k ih =>
    show rung x1 k (ix2 r 0) * rung x1 k (ix2 r 0) = sq _ k * sq _ k
    rw [ih]

/-- Column `k` at row `r` is filter `k`'s weight at that row's eigenvalue. -/
theorem col_apply (x1 : Vec Ideal S10000x1 .f32) (r : Fin 10000) (k : ℕ) :
    col x1 k (ix2 r 0) = wav (x1 (ix2 r 0)) k := by
  show rung x1 k (ix2 r 0) - rung x1 (k + 1) (ix2 r 0) = sq _ k - sq _ (k + 1)
  rw [rung_apply, rung_apply]

/-- Lane `k` of eight unit columns laid side by side is column `k` at its only lane. -/
theorem concat8_apply (c : ℕ → FVec Ideal S10000x1 .f32)
    (h : Shape.Concatenates ((cols8 c).map (·.1)) S10000x8 1) (r : Fin 10000) (k : Fin 8) :
    concatenate S10000x8 1 (cols8 c) h (ix2 r k) = c k.val (ix2 r 0) := by
  have hi : ∀ b : Fin S10000x1.rank, b.cast (rfl : S10000x1.rank = S10000x8.rank) ≠ 1 →
      ((ix2 r (0 : Fin 1) : S10000x1.Idx) b).val = ((ix2 r k : S10000x8.Idx) (b.cast rfl)).val := fun b =>
    match b with
    | ⟨0, _⟩ => fun _ => rfl
    | ⟨1, _⟩ => fun hb => absurd rfl hb
  fin_cases k
  · exact concatenate_apply_piece 1 (cols8 c) h _ 0 (by show _ < 8; omega) S10000x1 (c 0) rfl rfl 0 rfl (ix2 r 0) hi rfl
  · exact concatenate_apply_piece 1 (cols8 c) h _ 1 (by show _ < 8; omega) S10000x1 (c 1) rfl rfl 1 rfl (ix2 r 0) hi rfl
  · exact concatenate_apply_piece 1 (cols8 c) h _ 2 (by show _ < 8; omega) S10000x1 (c 2) rfl rfl 2 rfl (ix2 r 0) hi rfl
  · exact concatenate_apply_piece 1 (cols8 c) h _ 3 (by show _ < 8; omega) S10000x1 (c 3) rfl rfl 3 rfl (ix2 r 0) hi rfl
  · exact concatenate_apply_piece 1 (cols8 c) h _ 4 (by show _ < 8; omega) S10000x1 (c 4) rfl rfl 4 rfl (ix2 r 0) hi rfl
  · exact concatenate_apply_piece 1 (cols8 c) h _ 5 (by show _ < 8; omega) S10000x1 (c 5) rfl rfl 5 rfl (ix2 r 0) hi rfl
  · exact concatenate_apply_piece 1 (cols8 c) h _ 6 (by show _ < 8; omega) S10000x1 (c 6) rfl rfl 6 rfl (ix2 r 0) hi rfl
  · exact concatenate_apply_piece 1 (cols8 c) h _ 7 (by show _ < 8; omega) S10000x1 (c 7) rfl rfl 7 rfl (ix2 r 0) hi rfl

/-- The weights the body computes, at row `r` and lane `k`: filter `k`'s weight at the row's eigenvalue. -/
theorem pay5_apply (x1 : Vec Ideal S10000x1 .f32) (r : Fin 10000) (k : Fin 8) :
    k0_pay5 (F := Ideal) x1 (ix2 r k) = wav (x1 (ix2 r 0)) k.val := by
  rw [pay5_eq]
  exact (concat8_apply (col x1) _ r k).trans (col_apply x1 r k.val)

/-! ## One stored payload -/

/-- One stored payload: column `d` of the left block, repeated over the eight lanes, times the weights. -/
def scaled (v1 : FVec Ideal S10000x16 .f32) (w : FVec Ideal S10000x8 .f32) (d : ℕ) (hs : S10000x16.Slices ![0, d] S10000x1) :
    FVec Ideal S10000x8 .f32 :=
  mulf (broadcastTo S10000x8 (extractStridedSlice S10000x1 ![0, d] v1 hs) broadcasts_S10000x1_S10000x8) w

theorem scaled_apply (v1 : FVec Ideal S10000x16 .f32) (w : FVec Ideal S10000x8 .f32) (d : ℕ) (hd : d < 16)
    (hs : S10000x16.Slices ![0, d] S10000x1) (r : Fin 10000) (k : Fin 8) :
    scaled v1 w d hs (ix2 r k) = v1 (ix2 r ⟨d, hd⟩) * w (ix2 r k) := by
  unfold scaled
  rw [mulf_apply]
  congr 1
  refine (broadcastTo_apply _ broadcasts_S10000x1_S10000x8 (ix2 r k) (ix2 r 0) ?_).trans ?_
  · intro a
    match a with
    | ⟨0, _⟩ => rfl
    | ⟨1, _⟩ => rfl
  · refine extractStridedSlice_apply _ v1 hs (ix2 r 0) (ix2 r ⟨d, hd⟩) ?_
    intro a
    match a with
    | ⟨0, _⟩ => show r.val = 0 + r.val; omega
    | ⟨1, _⟩ => show d = d + 0; omega

/-! ## The block as one function of its index -/

/-- The block the body leaves, as one function of the block index: entry `(r, c)` is the left block's `(r, c / 8)`
    times the weight of filter `c % 8` at row `r`'s eigenvalue. -/
def blockG (x0 : Vec Ideal S10000x16 .f32) (x1 : Vec Ideal S10000x1 .f32) : S10000x128.Idx → EReal := fun y =>
  x0 (ix2 (⟨(y 0).val, idx2_lt0 y⟩ : Fin 10000) (⟨(y 1).val / 8, Nat.div_lt_of_lt_mul (idx2_lt1 y)⟩ : Fin 16))
    * wav (x1 (ix2 (⟨(y 0).val, idx2_lt0 y⟩ : Fin 10000) (0 : Fin 1))) ((y 1).val % 8)

theorem blockG_of (x0 : Vec Ideal S10000x16 .f32) (x1 : Vec Ideal S10000x1 .f32) (y : S10000x128.Idx)
    (r : Fin 10000) (d : Fin 16) (k : Fin 8) (h0 : (y 0).val = r.val) (h1 : (y 1).val = 8 * d.val + k.val) :
    blockG x0 x1 y = x0 (ix2 r d) * wav (x1 (ix2 r 0)) k.val := by
  unfold blockG
  have e0 : (⟨(y 0).val, idx2_lt0 y⟩ : Fin 10000) = r := Fin.ext h0
  have e1 : (⟨(y 1).val / 8, Nat.div_lt_of_lt_mul (idx2_lt1 y)⟩ : Fin 16) = d := Fin.ext (by show (y 1).val / 8 = d.val; omega)
  have e2 : (y 1).val % 8 = k.val := by omega
  rw [e0, e1, e2]

/-- A store of payload `d` through the rectangle of columns `[8 d, 8 d + 8)` agrees with `blockG` under the rectangle. -/
theorem piece_ok (x0 : Vec Ideal S10000x16 .f32) (x1 : Vec Ideal S10000x1 .f32)
    (v1 : FVec Ideal S10000x16 .f32) (hv : v1 = x0) (w : FVec Ideal S10000x8 .f32)
    (hw : ∀ (r : Fin 10000) (k : Fin 8), w (ix2 r k) = wav (x1 (ix2 r 0)) k.val)
    (d : ℕ) (hd : d < 16) (off : ℕ) (hoff : off = 8 * d)
    (inb : ∀ a, (![0, off] : Fin 2 → ℕ) a + S10000x8.size a ≤ S10000x128.size a)
    (hs : S10000x16.Slices ![0, d] S10000x1)
    (x : (Rect.unit (s := S10000x128) ![0, off] S10000x8.size inb).shape.Idx) :
    scaled v1 w d hs x = blockG x0 x1 ((Rect.unit (s := S10000x128) ![0, off] S10000x8.size inb).emb x) := by
  subst hv hoff
  obtain ⟨r, k, rfl⟩ : ∃ (r : Fin 10000) (k : Fin 8), x = ix2 r k := ⟨x 0, x 1, eq_ix2 x⟩
  rw [scaled_apply v1 w d hd hs r k, hw]
  refine (blockG_of v1 x1 _ r ⟨d, hd⟩ k ?_ ?_).symm
  · show 0 + 1 * r.val = r.val; omega
  · show 8 * d + 1 * k.val = 8 * d + k.val; omega

/-! ## The canon of the sixteen stores -/

/-- A load through the whole left block reads it. -/
theorem ld_left (x0 : Vec Ideal S10000x16 .f32) : View.ld x0 r0_0 = x0 :=
  View.ld_unit_zero (Val := Elt Ideal) (S := S10000x16)
    (funext fun a => by match a with | ⟨0, _⟩ => rfl | ⟨1, _⟩ => rfl) inb_S10000x16_S10000x16_0_0 x0

/-- A load through the whole eigenvalue column reads it. -/
theorem ld_eig (x1 : Vec Ideal S10000x1 .f32) : View.ld x1 r0_1 = x1 :=
  View.ld_unit_zero (Val := Elt Ideal) (S := S10000x1)
    (funext fun a => by match a with | ⟨0, _⟩ => rfl | ⟨1, _⟩ => rfl) inb_S10000x1_S10000x1_0_0 x1

/-- The shape cast of the left block to its own shape is the block. -/
theorem pay4_eq (x0 : Vec Ideal S10000x16 .f32) : k0_pay4 (F := Ideal) x0 = x0 := shapeCast_self x0 _

/-- What the body leaves in the output block is `blockG` of the two loaded blocks. -/
theorem out_eq (x0 : Vec Ideal S10000x16 .f32) (x1 : Vec Ideal S10000x1 .f32) (y : S10000x128.Idx) :
    out0_2 (F := Ideal) x0 x1 y = blockG x0 x1 y := by
  have hw : ∀ (r : Fin 10000) (k : Fin 8), k0_pay5 (F := Ideal) x1 (ix2 r k) = wav (x1 (ix2 r 0)) k.val := pay5_apply x1
  unfold out0_2
  rw [ld_left x0, ld_eig x1]
  refine View.canon_apply_of_pieces (Val := Elt Ideal) (blockG x0 x1) _ ?_ y (cover0_2 _ _ _ _ _ _ _ _ _ _ _ _ _ _ _ _ y)
  intro p hp x
  simp only [List.mem_cons, List.mem_nil_iff, or_false] at hp
  rcases hp with rfl | rfl | rfl | rfl | rfl | rfl | rfl | rfl | rfl | rfl | rfl | rfl | rfl | rfl | rfl | rfl
  · exact piece_ok x0 x1 _ (pay4_eq x0) _ hw 15 (by omega) 120 rfl inb_S10000x128_S10000x8_0_120 slices_S10000x16_o0_15_S10000x1 x
  · exact piece_ok x0 x1 _ (pay4_eq x0) _ hw 14 (by omega) 112 rfl inb_S10000x128_S10000x8_0_112 slices_S10000x16_o0_14_S10000x1 x
  · exact piece_ok x0 x1 _ (pay4_eq x0) _ hw 13 (by omega) 104 rfl inb_S10000x128_S10000x8_0_104 slices_S10000x16_o0_13_S10000x1 x
  · exact piece_ok x0 x1 _ (pay4_eq x0) _ hw 12 (by omega) 96 rfl inb_S10000x128_S10000x8_0_96 slices_S10000x16_o0_12_S10000x1 x
  · exact piece_ok x0 x1 _ (pay4_eq x0) _ hw 11 (by omega) 88 rfl inb_S10000x128_S10000x8_0_88 slices_S10000x16_o0_11_S10000x1 x
  · exact piece_ok x0 x1 _ (pay4_eq x0) _ hw 10 (by omega) 80 rfl inb_S10000x128_S10000x8_0_80 slices_S10000x16_o0_10_S10000x1 x
  · exact piece_ok x0 x1 _ (pay4_eq x0) _ hw 9 (by omega) 72 rfl inb_S10000x128_S10000x8_0_72 slices_S10000x16_o0_9_S10000x1 x
  · exact piece_ok x0 x1 _ (pay4_eq x0) _ hw 8 (by omega) 64 rfl inb_S10000x128_S10000x8_0_64 slices_S10000x16_o0_8_S10000x1 x
  · exact piece_ok x0 x1 _ (pay4_eq x0) _ hw 7 (by omega) 56 rfl inb_S10000x128_S10000x8_0_56 slices_S10000x16_o0_7_S10000x1 x
  · exact piece_ok x0 x1 _ (pay4_eq x0) _ hw 6 (by omega) 48 rfl inb_S10000x128_S10000x8_0_48 slices_S10000x16_o0_6_S10000x1 x
  · exact piece_ok x0 x1 _ (pay4_eq x0) _ hw 5 (by omega) 40 rfl inb_S10000x128_S10000x8_0_40 slices_S10000x16_o0_5_S10000x1 x
  · exact piece_ok x0 x1 _ (pay4_eq x0) _ hw 4 (by omega) 32 rfl inb_S10000x128_S10000x8_0_32 slices_S10000x16_o0_4_S10000x1 x
  · exact piece_ok x0 x1 _ (pay4_eq x0) _ hw 3 (by omega) 24 rfl inb_S10000x128_S10000x8_0_24 slices_S10000x16_o0_3_S10000x1 x
  · exact piece_ok x0 x1 _ (pay4_eq x0) _ hw 2 (by omega) 16 rfl inb_S10000x128_S10000x8_0_16 slices_S10000x16_o0_2_S10000x1 x
  · exact piece_ok x0 x1 _ (pay4_eq x0) _ hw 1 (by omega) 8 rfl inb_S10000x128_S10000x8_0_8 slices_S10000x16_o0_1_S10000x1 x
  · exact piece_ok x0 x1 _ (pay4_eq x0) _ hw 0 (by omega) 0 rfl inb_S10000x128_S10000x8_0_0 slices_S10000x16_o0_0_S10000x1 x

/-- **The output block entry by entry**: column `8 d + k` of row `r` is the left block's `(r, d)` times the weight of
    filter `k` at the row's eigenvalue. -/
theorem out_entry (x0 : Vec Ideal S10000x16 .f32) (x1 : Vec Ideal S10000x1 .f32) (r : Fin 10000) (d : Fin 16) (k : Fin 8) :
    out0_2 (F := Ideal) x0 x1 (ix2 r (⟨8 * d.val + k.val, by omega⟩ : Fin 128)) = x0 (ix2 r d) * wav (x1 (ix2 r 0)) k.val := by
  rw [out_eq]
  exact blockG_of x0 x1 _ r d k rfl rfl

end Cert.BlockEntry

end
-- ==== Proof.KernelArray.lean ====
/-
  The kernel's output array after the region, as one function of the two arrays the region reads.

  The region's grid has ten points; point `t` reads rows `[10000 t, 10000 (t + 1))` of the transformed features
  `ltx : [100000, 16]` and of the eigenvalue column `eig : [100000, 1]`, and writes the same rows of the
  `[100000, 128]` output. Inside a block, entry `(r, 8 d + k)` is `ltx (r, d) * wav (eig (r, 0)) k` (the hypothesis
  `hent`, proved where the body's stores are read). Row `i` of the array lies in block `i / 10000`, so the ten
  blocks cover the array and it ends holding `bank ltx eig`: entry `(n, c)` is `ltx (n, c / 8) * wav (eig (n, 0)) (c % 8)`.
-/
import proofs.«162771_j42356967473550_2_alg».proof.Proof.Gen.KernelIdeal.Frame
import proofs.«162771_j42356967473550_2_alg».proof.Proof.Wavelet
import Idealize.ShloMosaic.Lib.Pipeline.Value
import Idealize.ShloMosaic.Lib.ValueIdx
import Idealize.ShloMosaic.PureOps.Ideal

set_option maxRecDepth 16384

noncomputable section

namespace Cert.KernelArray

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The filter bank of every node, flattened: entry `(n, c)` is feature `c / 8` times weight `c % 8`. -/
def bank (ltx : S100000x16.Idx → Elt Ideal .f32) (eig : S100000x1.Idx → Elt Ideal .f32) : S100000x128.Idx → Elt Ideal .f32 :=
  fun i => ltx (ix2 (i 0) (⟨(i 1).val / 8, by have h : (i 1).val < 128 := (i 1).isLt; omega⟩ : Fin 16))
    * Cert.Wavelet.wav (eig (ix2 (i 0) (0 : Fin 1))) ((i 1).val % 8)

/-- The printed index maps over the ten grid points: every window's row block is the point, its column block `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Block `t` of the output, computed from blocks `t` of ANY two arrays, is block `t` of their `bank`. -/
theorem block_eq
    (hent : ∀ (x0 : Vec Ideal S10000x16 .f32) (x1 : Vec Ideal S10000x1 .f32) (r : Fin 10000) (d : Fin 16) (k : Fin 8),
      out0_2 (F := Ideal) x0 x1 (ix2 r (⟨8 * d.val + k.val, by omega⟩ : Fin 128)) = x0 (ix2 r d) * Cert.Wavelet.wav (x1 (ix2 r (0 : Fin 1))) k.val)
    (A0 : S100000x16.Idx → Elt Ideal .f32) (A1 : S100000x1.Idx → Elt Ideal .f32) (t : Fin cfg0.N) :
    out0_2 (F := Ideal) (((cfg0.win 0).blk t).view.read (Elt Ideal) A0) (((cfg0.win 1).blk t).view.read (Elt Ideal) A1)
      = ((cfg0.win 2).blk t).view.read (Elt Ideal) (bank A0 A1) := by
  obtain ⟨e00, e01, e10, e11, e20, e21⟩ := idx_facts t
  funext j
  obtain ⟨r, q, rfl⟩ : ∃ (r : Fin 10000) (q : Fin 128), j = ix2 r q := ⟨j 0, j 1, eq_ix2 j⟩
  have hq : q.val < 128 := q.isLt
  have hr : r.val < 10000 := r.isLt
  have hqq : (⟨8 * (q.val / 8) + q.val % 8, by omega⟩ : Fin 128) = q := Fin.ext (by show 8 * (q.val / 8) + q.val % 8 = q.val; omega)
  have h := hent (((cfg0.win 0).blk t).view.read (Elt Ideal) A0) (((cfg0.win 1).blk t).view.read (Elt Ideal) A1) r
    (⟨q.val / 8, by omega⟩ : Fin 16) (⟨q.val % 8, by omega⟩ : Fin 8)
  rw [hqq] at h
  refine h.trans ?_
  show A0 (((cfg0.win 0).blk t).view.emb (ix2 r (⟨q.val / 8, by omega⟩ : Fin 16)))
      * Cert.Wavelet.wav (A1 (((cfg0.win 1).blk t).view.emb (ix2 r (0 : Fin 1)))) (q.val % 8)
    = bank A0 A1 (((cfg0.win 2).blk t).view.emb (ix2 r q))
  unfold bank
  have h0 : ((cfg0.win 0).blk t).view.emb (ix2 r (⟨q.val / 8, by omega⟩ : Fin 16))
      = ix2 ((((cfg0.win 2).blk t).view.emb (ix2 r q)) 0) (⟨((((cfg0.win 2).blk t).view.emb (ix2 r q)) 1).val / 8, by have h : ((((cfg0.win 2).blk t).view.emb (ix2 r q)) 1).val < 128 := ((((cfg0.win 2).blk t).view.emb (ix2 r q)) 1).isLt; omega⟩ : Fin 16) := by
    funext a; apply Fin.ext
    match a with
    | ⟨0, _⟩ => show win0_0.index t (0 : Fin 2) * 10000 + 1 * r.val = win0_2.index t (0 : Fin 2) * 10000 + 1 * r.val; omega
    | ⟨1, _⟩ => show win0_0.index t (1 : Fin 2) * 16 + 1 * (q.val / 8) = (win0_2.index t (1 : Fin 2) * 128 + 1 * q.val) / 8; omega
  have h1 : ((cfg0.win 1).blk t).view.emb (ix2 r (0 : Fin 1)) = ix2 ((((cfg0.win 2).blk t).view.emb (ix2 r q)) 0) (0 : Fin 1) := by
    funext a; apply Fin.ext
    match a with
    | ⟨0, _⟩ => show win0_1.index t (0 : Fin 2) * 10000 + 1 * r.val = win0_2.index t (0 : Fin 2) * 10000 + 1 * r.val; omega
    | ⟨1, _⟩ => show win0_1.index t (1 : Fin 2) * 1 + 1 * 0 = 0; omega
  have h2 : q.val % 8 = ((((cfg0.win 2).blk t).view.emb (ix2 r q)) 1).val % 8 := by
    show q.val % 8 = (win0_2.index t (1 : Fin 2) * 128 + 1 * q.val) % 8; omega
  rw [h0, h1, h2]
  rfl

/-- What point `t` writes back is block `t` of `bank` of the arrays the region finds. -/
theorem flushed_eq
    (hent : ∀ (x0 : Vec Ideal S10000x16 .f32) (x1 : Vec Ideal S10000x1 .f32) (r : Fin 10000) (d : Fin 16) (k : Fin 8),
      out0_2 (F := Ideal) x0 x1 (ix2 r (⟨8 * d.val + k.val, by omega⟩ : Fin 128)) = x0 (ix2 r d) * Cert.Wavelet.wav (x1 (ix2 r (0 : Fin 1))) k.val)
    (c : Dev nD) (t : Fin cfg0.N) :
    (dats m 0 c).flushed 2 t = ((cfg0.win 2).blk t).view.read (Elt Ideal)
      (bank (V m c (Pipeline.arrRef spec0 0)) (V m c (Pipeline.arrRef spec0 1))) := by
  show (cfg0.win 2).cut (grid0.coords t) ((dats m 0 c).after 2 t) = _
  rw [after0_2]
  unfold iblk
  exact block_eq hent (V m c (Pipeline.arrRef spec0 0)) (V m c (Pipeline.arrRef spec0 1)) t

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v14).slice (win0_2.rect t)).set ↔ _
  rw [View.set_slice_whole, Rect.mem_set_unit]
  exact Iff.rfl

/-- Row `n` lies in block `n / 10000`: the ten blocks cover the array. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨(⟨(i 0).val / 10000, by show (i 0).val / 10000 < 10; omega⟩ : Fin cfg0.N), flush0_2 _, ?_⟩
  rw [mem_blk]
  obtain ⟨-, -, -, -, e20, e21⟩ := idx_facts (⟨(i 0).val / 10000, by show (i 0).val / 10000 < 10; omega⟩ : Fin cfg0.N)
  intro a
  match a with
  | ⟨0, _⟩ =>
    show win0_2.index _ (0 : Fin 2) * 10000 ≤ (i 0).val ∧ (i 0).val < win0_2.index _ (0 : Fin 2) * 10000 + 10000
    rw [e20]; show (i 0).val / 10000 * 10000 ≤ (i 0).val ∧ (i 0).val < (i 0).val / 10000 * 10000 + 10000; omega
  | ⟨1, _⟩ =>
    show win0_2.index _ (1 : Fin 2) * 128 ≤ (i 1).val ∧ (i 1).val < win0_2.index _ (1 : Fin 2) * 128 + 128
    rw [e21]; omega

/-- The output array after the region. -/
theorem final
    (hent : ∀ (x0 : Vec Ideal S10000x16 .f32) (x1 : Vec Ideal S10000x1 .f32) (r : Fin 10000) (d : Fin 16) (k : Fin 8),
      out0_2 (F := Ideal) x0 x1 (ix2 r (⟨8 * d.val + k.val, by omega⟩ : Fin 128)) = x0 (ix2 r d) * Cert.Wavelet.wav (x1 (ix2 r (0 : Fin 1))) k.val)
    (c : Dev nD) :
    (dats m 0 c).arrAt 2 cfg0.N = bank (V m c (Pipeline.arrRef spec0 0)) (V m c (Pipeline.arrRef spec0 1)) :=
  (dats m 0 c).arrAt_eq_of_cover 2 (bank (V m c (Pipeline.arrRef spec0 0)) (V m c (Pipeline.arrRef spec0 1))) (fun t _ => flushed_eq m hent c t) cover

end Cert.KernelArray

end
-- ==== Proof.KernelHost.lean ====
/-
  The host lines of the kernel's program around its one region, read as functions of the argument arrays.

  Before the region: `ltx = segment_sum (lv * x[rows], cols)` — the very operations, on the very operands, of the
  reference's own first stage, so the array the region reads is the reference's stage (`ltx_eq`) — and the eigenvalue
  vector laid out as a column (`eig_eq`). After the region: the output array viewed as `[100000, 16, 8]`, its slices
  gathered at `cols`, scaled by `lv` and scatter-added at `rows` (`tail`, `tail_eq`).
-/
import proofs.«162771_j42356967473550_2_alg».proof.Proof.Gen.KernelIdeal.Frame
import proofs.«162771_j42356967473550_2_alg».proof.Proof.Gen.ReferenceIdeal.Read
import Idealize.ShloMosaic.Lib.Pipeline.Value
import Idealize.ShloMosaic.Lib.StableHlo.Run
import Idealize.ShloMosaic.PureOps.Ideal

set_option maxRecDepth 16384

noncomputable section

namespace Cert.KernelHost

open Idealize.ShloMosaic Idealize.ShloMosaic.TcCoe Idealize.ShloMosaic.Tactic Idealize.SL.Sem Idealize.ShloMosaic.StableHlo
open Cert.KernelIdeal Cert.KernelIdeal.Gen

variable (m : (ℓ : Loc nD τ sig) → Buf (Elt Ideal) ℓ)

/-- The lines after the region, as one function of the region's output array and of `rows`, `cols`, `lv`. -/
def tail (g2 : (⟨S100000x128, .f32⟩ : BufTy).Contents (Elt Ideal)) (a1 a2 : (⟨S1600000, .i32⟩ : BufTy).Contents (Elt Ideal))
    (a3 : (⟨S1600000, .f32⟩ : BufTy).Contents (Elt Ideal)) : (⟨S100000x16x8, .f32⟩ : BufTy).Contents (Elt Ideal) :=
  Host.scatterAdd (F := Ideal) scatter_S100000x16x8_S1600000x1_S1600000x16x8_12_0_0_1
    (broadcastInDim S100000x16x8 ![] bcast_S_S100000x16x8 (constant (F := Ideal) S_ .f32 0x00000000#32))
    (broadcastInDim S1600000x1 ![0] bcast_S1600000_S1600000x1_0 a1)
    (mulf (F := Ideal)
      (broadcastInDim S1600000x16x8 ![0, 1, 2] bcast_S1600000x1x1_S1600000x16x8_0_1_2
        (broadcastInDim S1600000x1x1 ![0] bcast_S1600000_S1600000x1x1_0 a3))
      (Host.gather gather_S100000x16x8_S1600000x1_S1600000x16x8_12_0_n_n_0_1_1168
        (fun i => shapeCast S100000x16x8 g2 shapeCasts_S100000x128_S100000x16x8 i)
        (broadcastInDim S1600000x1 ![0] bcast_S1600000_S1600000x1_0
          (select (cmpi .slt a2 (broadcastInDim S1600000 ![] bcast_S_S1600000 (constantI S_ 32 0#32)))
            (addi a2 (broadcastInDim S1600000 ![] bcast_S_S1600000 (constantI S_ 32 100000#32))) a2))))

set_option maxHeartbeats 2000000 in
/-- The result buffer after the lines that follow the region. -/
theorem tail_eq (c : Dev nD) :
    Pipeline.afterTail₀ cfgs (dats m) 0 (V0 m) [hostOps1] c main_v28
      = tail ((dats m 0 c).arrAt 2 cfg0.N) (m ((c : Thread nD τ).loc main_arg1)) (m ((c : Thread nD τ).loc main_arg2)) (m ((c : Thread nD τ).loc main_arg3)) := by
  have h14 : Pipeline.withArrays (cfgs 0).spec c (V0 m c) (fun w => (dats m 0 c).arrAt w (cfgs 0).N) (Proc.devRef .tc main_v14)
      = (dats m 0 c).arrAt 2 cfg0.N := Pipeline.withArrays_arr spec0 launch0.win.arr_inj c _ _ 2
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  unfold Pipeline.afterTail₀
  simp only [hostOps1, List.flatten_cons, List.flatten_nil, List.append_nil]
  after_results_simp
  rw [h14, h1, h2, h3]
  rfl

set_option maxHeartbeats 2000000 in
/-- The first array the region reads is the reference's first stage of the same arguments. -/
theorem ltx_eq (c : Dev nD) :
    V m c main_v12 = Cert.ReferenceIdeal.Read.val_main_v68 (F := Ideal) (m ((c : Thread nD τ).loc main_arg0))
      (m ((c : Thread nD τ).loc main_arg1)) (m ((c : Thread nD τ).loc main_arg2)) (m ((c : Thread nD τ).loc main_arg3)) := by
  dsimp only [V, V0]
  simp only [hostOps0, List.flatten_cons, List.flatten_nil, List.append_nil]
  after_results_simp
  rfl

set_option maxHeartbeats 2000000 in
/-- The second is the eigenvalue vector as a column. -/
theorem eig_eq (c : Dev nD) :
    V m c main_v13 = broadcastInDim S100000x1 ![0] bcast_S100000_S100000x1_0 (m ((c : Thread nD τ).loc main_arg4)) := by
  dsimp only [V, V0]
  simp only [hostOps0, List.flatten_cons, List.flatten_nil, List.append_nil]
  after_results_simp

end Cert.KernelHost

end
-- ==== Proof.RefMiddle.lean ====
/-
  The reference's dense middle, read entry by entry at the exact-real instance.

  Its exponent vector is computed in integer arithmetic (binary exponentiation of 2 at the exponents 0 … 8) and then
  converted to floats: entry `k` is the real number `2 ^ k` (`exponent`). Its wavelet weights are
  `exp (-e) ^ (2 ^ k) - exp (-e) ^ (2 ^ (k + 1))` with a real power (`weight`), and the flattened filter bank at
  column `8 * d + k` of node `n` is the node's `d`-th transformed feature times its `k`-th weight (`bank_entry`):
  row-major flattening of `[16, 8]` sends `(d, k)` to `8 * d + k`.
-/
import proofs.«162771_j42356967473550_2_alg».proof.Proof.Gen.ReferenceIdeal.Read
import proofs.«162771_j42356967473550_2_alg».proof.Proof.Wavelet
import Idealize.ShloMosaic.Lib.ValueIdx
import Idealize.ShloMosaic.PureOps.Ideal

noncomputable section

namespace Cert.RefMiddle

open Idealize.ShloMosaic Idealize.ShloMosaic.ValueIdx Cert.ReferenceIdeal Cert.ReferenceIdeal.Read

/-- The integer exponent at position `k` is the word `2 ^ k`: six rounds of square-and-multiply on the bits of `k`. -/
theorem exponent_word (k : Fin 9) : val_main_v51 (F := Ideal) (ix1 k) = BitVec.ofNat 32 (2 ^ k.val) := by
  fin_cases k <;> decide

/-- As a float it is the real `2 ^ k`. -/
theorem exponent (k : Fin 9) : val_main_v55 (F := Ideal) (ix1 k) = (((2 ^ k.val : ℕ) : ℝ) : EReal) := by
  rw [val_main_v55_apply, exponent_word]
  show (((BitVec.ofNat 32 (2 ^ k.val)).toInt : ℝ) : EReal) = _
  have h : (BitVec.ofNat 32 (2 ^ k.val)).toInt = ((2 ^ k.val : ℕ) : ℤ) := by fin_cases k <;> decide
  rw [h, Int.cast_natCast]

/-- Filter `k`'s weight at node `n`: the difference of two consecutive real powers of `exp (-e)`. -/
theorem weight (x4 : (⟨S100000, .f32⟩ : BufTy).Contents (Elt Ideal)) (n : Fin 100000) (k : Fin 8) :
    val_main_v78 (F := Ideal) x4 (ix2 n k) = Cert.Wavelet.wavPow (x4 (ix1 n)) k.val := by
  have hk : k.val < 8 := k.isLt
  have i1 : idx_main_v71 (idx_main_v73 (idx_main_v76 (ix2 n k))) = ix1 n := by
    funext a; match a with | ⟨0, _⟩ => rfl
  have i2 : idx_main_v71 (idx_main_v73 (idx_main_v77 (ix2 n k))) = ix1 n := by
    funext a; match a with | ⟨0, _⟩ => rfl
  have j1 : idx_main_v72 (idx_main_v74 (idx_main_v76 (ix2 n k))) = ix1 (⟨k.val, by omega⟩ : Fin 9) := by
    funext a; match a with | ⟨0, _⟩ => rfl
  have j2 : idx_main_v72 (idx_main_v74 (idx_main_v77 (ix2 n k))) = ix1 (⟨k.val + 1, by omega⟩ : Fin 9) := by
    funext a; refine Fin.ext ?_; match a with | ⟨0, _⟩ => show 1 + k.val = k.val + 1; omega
  simp only [val_main_v78_apply, val_main_v76_apply, val_main_v77_apply, val_main_v75_apply,
    val_main_v73_apply, val_main_v71_apply, val_main_v70_apply, val_main_v69_apply, val_main_v74_apply, val_main_v72_apply]
  simp only [i1, i2, j1, j2, exponent]
  rfl

/-- The flattened filter bank at `(n, 8 * d + k)`: feature `d` of node `n` times the node's weight `k`. -/
theorem bank_entry (x0 : (⟨S100000x16, .f32⟩ : BufTy).Contents (Elt Ideal)) (x1 x2 : (⟨S1600000, .i32⟩ : BufTy).Contents (Elt Ideal))
    (x3 : (⟨S1600000, .f32⟩ : BufTy).Contents (Elt Ideal)) (x4 : (⟨S100000, .f32⟩ : BufTy).Contents (Elt Ideal))
    (n : Fin 100000) (d : Fin 16) (k : Fin 8) :
    val_main_v84 (F := Ideal) x0 x1 x2 x3 x4 (ix2 n (⟨8 * d.val + k.val, by omega⟩ : Fin 128))
      = val_main_v68 (F := Ideal) x0 x1 x2 x3 (ix2 n d) * Cert.Wavelet.wavPow (x4 (ix1 n)) k.val := by
  have hd : d.val < 16 := d.isLt
  have hk : k.val < 8 := k.isLt
  have hn : n.val < 100000 := n.isLt
  have e1 : idx_main_v79 (idx_main_v81 (idx_main_v84 (ix2 n (⟨8 * d.val + k.val, by omega⟩ : Fin 128)))) = ix2 n d := by
    funext a; refine Fin.ext ?_
    match a with
    | ⟨0, _⟩ => show (n.val * 128 + (8 * d.val + k.val)) / 128 = n.val; omega
    | ⟨1, _⟩ => show (n.val * 128 + (8 * d.val + k.val)) / 8 % 16 = d.val; omega
  have e2 : idx_main_v80 (idx_main_v82 (idx_main_v84 (ix2 n (⟨8 * d.val + k.val, by omega⟩ : Fin 128)))) = ix2 n k := by
    funext a; refine Fin.ext ?_
    match a with
    | ⟨0, _⟩ => show (n.val * 128 + (8 * d.val + k.val)) / 128 = n.val; omega
    | ⟨1, _⟩ => show (n.val * 128 + (8 * d.val + k.val)) % 8 = k.val; omega
  rw [val_main_v84_apply, val_main_v83_apply, val_main_v81_apply, val_main_v79_apply, val_main_v82_apply, val_main_v80_apply,
    e1, e2, weight]
  rfl

end Cert.RefMiddle

end
-- ==== Proof.LibScatterFlat.lean ====
/-
  A SPARSE ROW PRODUCT DOES NOT SEE HOW THE FEATURE AXIS IS SPLIT.

  The operation: out[r] = z[r] + the sum, over the edges e whose row index is r, of lv[e] * g[col(e)], where every
  node carries a block of numbers. It can be written with the block as TWO axes [A, B] — a gather of [1, A, B] slices
  of g : [N, A, B] at the column indices, an elementwise product with lv : [E, A, B], a scatter-add of [A, B] windows
  into z : [N, A, B] at the row indices — or with the block as ONE axis [C]: a gather of [1, C] rows of g : [N, C], the
  product with lv : [E, C], a scatter-add of rows into z : [N, C].

  At the exact-real instance the two agree entry by entry along ANY relabelling fl : Fin A → Fin B → Fin C of the
  block's coordinates under which the three operands agree (g, lv and z at (·, d, k) are those at (·, fl d k)): entry
  (n, d, k) of the first is entry (n, fl d k) of the second (`scatter_gather_flat_gen`). Nothing is asked of fl
  (row-major flattening, B * d + k, is the case of interest), and nothing of the index arrays: the scatter drops an
  update whose row index is outside [0, N) and the gather clamps its column index into [0, N - 1], and both do so on
  the leading axis only, by the same rule, in the two spellings.

  Why: fix the target (n, d, k). An update (e, d', k') of the first scatter lands on it exactly when row(e) = n,
  d' = d and k' = k (`sc3_hit`); an update (e, c) of the second lands on (n, fl d k) exactly when row(e) = n and
  c = fl d k (`sc2_hit`). So e ↦ (e, d, k) and e ↦ (e, fl d k) enumerate the two sets of contributing updates by the
  same set of edges, the maps (e, d, k) ↦ (e, fl d k) and (e, c) ↦ (e, d, k) are inverse bijections between them, and
  the summands agree: lv at (e, d, k) times g at (r, d, k) against lv at (e, fl d k) times g at (r, fl d k), with the
  same clamped row r = min (col(e) read signed, negative as 0) (N - 1) on both sides (`gather3_apply`,
  `gather2_apply`).

  The first lemma holds for every scatter: an update lands on i exactly when, on every operand axis, its signed start
  plus its window coordinate is i's coordinate (`resultIdx?_eq_some_iff`).
-/
import Idealize.ShloMosaic.PureOps.Ideal
import Idealize.ShloMosaic.Lib.ValueIdx

noncomputable section

open scoped BigOperators
open Idealize.ShloMosaic Idealize.ShloMosaic.ValueIdx

namespace Cert.LibScatterFlat

/-- WHERE AN UPDATE LANDS, for every scatter: update index `j` lands on operand index `i` exactly when on every
    operand axis the signed start plus the window coordinate is `i`'s coordinate. (An update that leaves the operand
    on some axis lands nowhere, and then no `i` has those coordinates.) -/
theorem resultIdx?_eq_some_iff {s si u : Shape} (D : ScatterDims s si u) {w : Nat} (j : u.Idx) (idx : IVec si w)
    (i : s.Idx) :
    D.resultIdx? j idx = some i ↔ ∀ a, D.start j idx a + (D.window j a : ℤ) = ((i a).val : ℤ) := by
  unfold ScatterDims.resultIdx?
  split
  · rename_i h
    rw [Option.some.injEq]
    constructor
    · intro hi a
      have h1 := congrFun hi a
      have h2 := h a
      rw [← h1]
      show _ = (((D.start j idx a + (D.window j a : ℤ)).toNat : ℕ) : ℤ)
      omega
    · intro hi
      funext a
      refine Fin.ext ?_
      have h1 := hi a
      have h2 := h a
      show (D.start j idx a + (D.window j a : ℤ)).toNat = (i a).val
      omega
  · rename_i h
    constructor
    · intro hi; exact absurd hi (by simp)
    · intro hi
      exfalso; apply h; intro a
      have h1 := hi a
      have h2 := (i a).isLt
      omega

/-- The scatter's dimension numbers with the block as two axes: operand [N, A, B], one row index per edge ([E, 1],
    index vector on axis 1), updates [E, A, B] whose axes 1 and 2 are window axes; operand axis 0 is the inserted one
    and the one the row index addresses. -/
abbrev sc3 (N E A B : Nat) (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

/-- The same with the block as one axis: operand [N, C], updates [E, C] whose axis 1 is the window axis. -/
abbrev sc2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The gather's dimension numbers with the block as two axes: slices [1, A, B] of an operand [N, A, B], one start
    index per edge ([E, 1]) on operand axis 0, which is collapsed; result [E, A, B] with offset axes 1 and 2. -/
abbrev gd3 (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- The same with the block as one axis: rows [1, C] of an operand [N, C]; result [E, C] with offset axis 1. -/
abbrev gd2 (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section
variable {N E A B C w : Nat}

/-- On the addressed axis the window of update (e, d, k) starts at edge e's row index, read signed. -/
theorem sc3_start0 (wf) (e : Fin E) (d : Fin A) (k : Fin B) (idx : IVec ⟨2, ![E, 1]⟩ w) :
    (sc3 N E A B wf).start (ix3 e d k) idx 0 = (idx (ix2 e 0)).toInt := by
  unfold ScatterDims.start
  rw [dif_pos (show (0 : Fin 3) ∈ (sc3 N E A B wf).scatterDimsToOperandDims from List.mem_singleton.mpr rfl)]
  have hsi : (sc3 N E A B wf).siIdx (ix3 e d k) ⟨List.idxOf (0 : Fin 3) (sc3 N E A B wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the two block axes every window starts at 0. -/
theorem sc3_start1 (wf) (j : (⟨3, ![E, A, B]⟩ : Shape).Idx) (idx : IVec ⟨2, ![E, 1]⟩ w) :
    (sc3 N E A B wf).start j idx 1 = 0 := by
  unfold ScatterDims.start
  rw [dif_neg (show (1 : Fin 3) ∉ ([0] : List (Fin 3)) from by decide)]

theorem sc3_start2 (wf) (j : (⟨3, ![E, A, B]⟩ : Shape).Idx) (idx : IVec ⟨2, ![E, 1]⟩ w) :
    (sc3 N E A B wf).start j idx 2 = 0 := by
  unfold ScatterDims.start
  rw [dif_neg (show (2 : Fin 3) ∉ ([0] : List (Fin 3)) from by decide)]

/-- The window coordinates of update (e, d, k): 0 on the inserted axis, d and k on the block axes. -/
theorem sc3_window0 (wf) (e : Fin E) (d : Fin A) (k : Fin B) : (sc3 N E A B wf).window (ix3 e d k) 0 = 0 := rfl
theorem sc3_window1 (wf) (e : Fin E) (d : Fin A) (k : Fin B) : (sc3 N E A B wf).window (ix3 e d k) 1 = d.val := rfl
theorem sc3_window2 (wf) (e : Fin E) (d : Fin A) (k : Fin B) : (sc3 N E A B wf).window (ix3 e d k) 2 = k.val := rfl

/-- The same reads with the block as one axis: start the row index on axis 0 and 0 on axis 1; window coordinates
    0 and c for update (e, c). -/
theorem sc2_start0 (wf) (e : Fin E) (c : Fin C) (idx : IVec ⟨2, ![E, 1]⟩ w) :
    (sc2 N E C wf).start (ix2 e c) idx 0 = (idx (ix2 e 0)).toInt := by
  unfold ScatterDims.start
  rw [dif_pos (show (0 : Fin 2) ∈ (sc2 N E C wf).scatterDimsToOperandDims from List.mem_singleton.mpr rfl)]
  have hsi : (sc2 N E C wf).siIdx (ix2 e c) ⟨List.idxOf (0 : Fin 2) (sc2 N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem sc2_start1 (wf) (j : (⟨2, ![E, C]⟩ : Shape).Idx) (idx : IVec ⟨2, ![E, 1]⟩ w) :
    (sc2 N E C wf).start j idx 1 = 0 := by
  unfold ScatterDims.start
  rw [dif_neg (show (1 : Fin 2) ∉ ([0] : List (Fin 2)) from by decide)]

theorem sc2_window0 (wf) (e : Fin E) (c : Fin C) : (sc2 N E C wf).window (ix2 e c) 0 = 0 := rfl
theorem sc2_window1 (wf) (e : Fin E) (c : Fin C) : (sc2 N E C wf).window (ix2 e c) 1 = c.val := rfl

/-- An update of the rank-3 scatter lands on entry (n, d', k') exactly when its row index is n and its window
    coordinates are (d', k'). -/
theorem sc3_hit (wf) (e : Fin E) (d : Fin A) (k : Fin B) (idx : IVec ⟨2, ![E, 1]⟩ w) (n : Fin N) (d' : Fin A) (k' : Fin B) :
    (sc3 N E A B wf).resultIdx? (ix3 e d k) idx = some (ix3 n d' k') ↔
      (idx (ix2 e 0)).toInt = (n.val : ℤ) ∧ d = d' ∧ k = k' := by
  rw [resultIdx?_eq_some_iff]
  constructor
  · intro h
    have h0 : (sc3 N E A B wf).start (ix3 e d k) idx 0 + (((sc3 N E A B wf).window (ix3 e d k) 0 : ℕ) : ℤ)
        = (n.val : ℤ) := h 0
    have h1 : (sc3 N E A B wf).start (ix3 e d k) idx 1 + (((sc3 N E A B wf).window (ix3 e d k) 1 : ℕ) : ℤ)
        = (d'.val : ℤ) := h 1
    have h2 : (sc3 N E A B wf).start (ix3 e d k) idx 2 + (((sc3 N E A B wf).window (ix3 e d k) 2 : ℕ) : ℤ)
        = (k'.val : ℤ) := h 2
    rw [sc3_start0, sc3_window0] at h0
    rw [sc3_start1, sc3_window1] at h1
    rw [sc3_start2, sc3_window2] at h2
    refine ⟨?_, Fin.ext ?_, Fin.ext ?_⟩
    · omega
    · omega
    · omega
  · rintro ⟨h0, rfl, rfl⟩ a
    match a with
    | ⟨0, _⟩ =>
      show (sc3 N E A B wf).start (ix3 e d k) idx 0 + (((sc3 N E A B wf).window (ix3 e d k) 0 : ℕ) : ℤ) = (n.val : ℤ)
      rw [sc3_start0, sc3_window0, h0]; omega
    | ⟨1, _⟩ =>
      show (sc3 N E A B wf).start (ix3 e d k) idx 1 + (((sc3 N E A B wf).window (ix3 e d k) 1 : ℕ) : ℤ) = (d.val : ℤ)
      rw [sc3_start1, sc3_window1]; omega
    | ⟨2, _⟩ =>
      show (sc3 N E A B wf).start (ix3 e d k) idx 2 + (((sc3 N E A B wf).window (ix3 e d k) 2 : ℕ) : ℤ) = (k.val : ℤ)
      rw [sc3_start2, sc3_window2]; omega

/-- An update (e, c) of the rank-2 scatter lands on entry (n, c') exactly when its row index is n and c = c'. -/
theorem sc2_hit (wf) (e : Fin E) (c : Fin C) (idx : IVec ⟨2, ![E, 1]⟩ w) (n : Fin N) (c' : Fin C) :
    (sc2 N E C wf).resultIdx? (ix2 e c) idx = some (ix2 n c') ↔
      (idx (ix2 e 0)).toInt = (n.val : ℤ) ∧ c = c' := by
  rw [resultIdx?_eq_some_iff]
  constructor
  · intro h
    have h0 : (sc2 N E C wf).start (ix2 e c) idx 0 + (((sc2 N E C wf).window (ix2 e c) 0 : ℕ) : ℤ)
        = (n.val : ℤ) := h 0
    have h1 : (sc2 N E C wf).start (ix2 e c) idx 1 + (((sc2 N E C wf).window (ix2 e c) 1 : ℕ) : ℤ)
        = (c'.val : ℤ) := h 1
    rw [sc2_start0, sc2_window0] at h0
    rw [sc2_start1, sc2_window1] at h1
    refine ⟨?_, Fin.ext ?_⟩
    · omega
    · omega
  · rintro ⟨h0, rfl⟩ a
    match a with
    | ⟨0, _⟩ =>
      show (sc2 N E C wf).start (ix2 e c) idx 0 + (((sc2 N E C wf).window (ix2 e c) 0 : ℕ) : ℤ) = (n.val : ℤ)
      rw [sc2_start0, sc2_window0, h0]; omega
    | ⟨1, _⟩ =>
      show (sc2 N E C wf).start (ix2 e c) idx 1 + (((sc2 N E C wf).window (ix2 e c) 1 : ℕ) : ℤ) = (c.val : ℤ)
      rw [sc2_start1, sc2_window1]; omega

/-- The rank-3 gather at (e, d, k): the operand at (r, d, k), where r is edge e's start index read signed, a negative
    one as 0, and clamped to N - 1. -/
theorem gather3_apply {α : Type} (hN : 0 < N) (wf) (x : (⟨3, ![N, A, B]⟩ : Shape).Idx → α) (idx : IVec ⟨2, ![E, 1]⟩ w)
    (e : Fin E) (d : Fin A) (k : Fin B) :
    Host.gather (gd3 N E A B wf) x idx (ix3 e d k)
      = x (ix3 ⟨min (idx (ix2 e 0)).toInt.toNat (N - 1), by omega⟩ d k) := by
  unfold Host.gather
  congr 1
  funext a
  refine Fin.ext ?_
  match a with
  | ⟨0, _⟩ =>
    show (gd3 N E A B wf).start (ix3 e d k) idx 0 + (gd3 N E A B wf).batchCoord (ix3 e d k) 0
      + (gd3 N E A B wf).offCoord (ix3 e d k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (gd3 N E A B wf).startIndexMap from List.mem_singleton.mpr rfl)]
    have hsi : (gd3 N E A B wf).siIdx (ix3 e d k) ⟨List.idxOf (0 : Fin 3) (gd3 N E A B wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gd3 N E A B wf).start (ix3 e d k) idx 1 + (gd3 N E A B wf).batchCoord (ix3 e d k) 1
      + (gd3 N E A B wf).offCoord (ix3 e d k) 1 = d.val
    rw [GatherDims.batchCoord_eq_zero _ _ _ List.not_mem_nil]
    unfold GatherDims.start
    rw [dif_neg (show (1 : Fin 3) ∉ ([0] : List (Fin 3)) from by decide)]
    simp only [Nat.add_zero, Nat.zero_add]
    rfl
  | ⟨2, _⟩ =>
    show (gd3 N E A B wf).start (ix3 e d k) idx 2 + (gd3 N E A B wf).batchCoord (ix3 e d k) 2
      + (gd3 N E A B wf).offCoord (ix3 e d k) 2 = k.val
    rw [GatherDims.batchCoord_eq_zero _ _ _ List.not_mem_nil]
    unfold GatherDims.start
    rw [dif_neg (show (2 : Fin 3) ∉ ([0] : List (Fin 3)) from by decide)]
    simp only [Nat.add_zero, Nat.zero_add]
    rfl

/-- The rank-2 gather at (e, c): the operand at (r, c), the same r. -/
theorem gather2_apply {α : Type} (hN : 0 < N) (wf) (x : (⟨2, ![N, C]⟩ : Shape).Idx → α) (idx : IVec ⟨2, ![E, 1]⟩ w)
    (e : Fin E) (c : Fin C) :
    Host.gather (gd2 N E C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (gd2 N E C wf).start (ix2 e c) idx 0 + (gd2 N E C wf).batchCoord (ix2 e c) 0
      + (gd2 N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gd2 N E C wf).startIndexMap from List.mem_singleton.mpr rfl)]
    have hsi : (gd2 N E C wf).siIdx (ix2 e c) ⟨List.idxOf (0 : Fin 2) (gd2 N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gd2 N E C wf).start (ix2 e c) idx 1 + (gd2 N E C wf).batchCoord (ix2 e c) 1
      + (gd2 N E C wf).offCoord (ix2 e c) 1 = c.val
    rw [GatherDims.batchCoord_eq_zero _ _ _ List.not_mem_nil]
    unfold GatherDims.start
    rw [dif_neg (show (1 : Fin 2) ∉ ([0] : List (Fin 2)) from by decide)]
    simp only [Nat.add_zero, Nat.zero_add]
    rfl

end

section Main
variable {N E A B C w w' : Nat} {φ : FTy}

/-- THE TWO SPELLINGS AGREE ENTRY BY ENTRY: with operands that agree along `fl` (`hg`, `hlv`, `hz`), entry (n, d, k) of
    the scatter-add of lv * gather(g) over [N, A, B] is entry (n, fl d k) of the one over [N, C]; any index words. -/
theorem scatter_gather_flat_gen (fl : Fin A → Fin B → Fin C)
    (wfS3 : ScatterDims.WF ⟨3, ![N, A, B]⟩ ⟨2, ![E, 1]⟩ ⟨3, ![E, A, B]⟩ [1, 2] [0] [0] 1)
    (wfG3 : GatherDims.WF ⟨3, ![N, A, B]⟩ ⟨2, ![E, 1]⟩ ⟨3, ![E, A, B]⟩ [1, 2] [0] [] [0] [] 1 ![1, A, B])
    (wfS2 : ScatterDims.WF ⟨2, ![N, C]⟩ ⟨2, ![E, 1]⟩ ⟨2, ![E, C]⟩ [1] [0] [0] 1)
    (wfG2 : GatherDims.WF ⟨2, ![N, C]⟩ ⟨2, ![E, 1]⟩ ⟨2, ![E, C]⟩ [1] [0] [] [0] [] 1 ![1, C])
    (g3 : (⟨3, ![N, A, B]⟩ : Shape).Idx → EReal) (g2 : (⟨2, ![N, C]⟩ : Shape).Idx → EReal)
    (hg : ∀ (n : Fin N) (d : Fin A) (k : Fin B), g3 (ix3 n d k) = g2 (ix2 n (fl d k)))
    (lv3 : (⟨3, ![E, A, B]⟩ : Shape).Idx → EReal) (lv2 : (⟨2, ![E, C]⟩ : Shape).Idx → EReal)
    (hlv : ∀ (e : Fin E) (d : Fin A) (k : Fin B), lv3 (ix3 e d k) = lv2 (ix2 e (fl d k)))
    (z3 : (⟨3, ![N, A, B]⟩ : Shape).Idx → EReal) (z2 : (⟨2, ![N, C]⟩ : Shape).Idx → EReal)
    (hz : ∀ (n : Fin N) (d : Fin A) (k : Fin B), z3 (ix3 n d k) = z2 (ix2 n (fl d k)))
    (irows : IVec ⟨2, ![E, 1]⟩ w) (icols : IVec ⟨2, ![E, 1]⟩ w')
    (n : Fin N) (d : Fin A) (k : Fin B) :
    Host.scatterAdd (F := Ideal) (φ := φ) (sc3 N E A B wfS3) z3 irows
        (mulf (F := Ideal) (φ := φ) lv3 (Host.gather (gd3 N E A B wfG3) g3 icols)) (ix3 n d k)
      = Host.scatterAdd (F := Ideal) (φ := φ) (sc2 N E C wfS2) z2 irows
        (mulf (F := Ideal) (φ := φ) lv2 (Host.gather (gd2 N E C wfG2) g2 icols)) (ix2 n (fl d k)) := by
  have hN : 0 < N := n.pos
  unfold Host.scatterAdd
  rw [Ideal.hostScatterAdd_def, Ideal.hostScatterAdd_def]
  unfold Ideal.hostScatterAdd
  show z3 (ix3 n d k) + _ = z2 (ix2 n (fl d k)) + _
  rw [hz]
  refine congrArg (z2 (ix2 n (fl d k)) + ·) ?_
  refine Finset.sum_nbij' (fun j3 => ix2 (j3 0) (fl d k)) (fun j2 => ix3 (j2 0) d k) ?_ ?_ ?_ ?_ ?_
  · intro j3 hj3
    obtain ⟨e, d', k', rfl⟩ : ∃ (e : Fin E) (d' : Fin A) (k' : Fin B), j3 = ix3 e d' k' := ⟨j3 0, j3 1, j3 2, eq_ix3 j3⟩
    rw [Finset.mem_filter] at hj3 ⊢
    obtain ⟨h0, rfl, rfl⟩ := (sc3_hit wfS3 e d' k' irows n d k).mp hj3.2
    exact ⟨Finset.mem_univ _, (sc2_hit wfS2 e (fl d' k') irows n (fl d' k')).mpr ⟨h0, rfl⟩⟩
  · intro j2 hj2
    obtain ⟨e, c, rfl⟩ : ∃ (e : Fin E) (c : Fin C), j2 = ix2 e c := ⟨j2 0, j2 1, eq_ix2 j2⟩
    rw [Finset.mem_filter] at hj2 ⊢
    obtain ⟨h0, _⟩ := (sc2_hit wfS2 e c irows n (fl d k)).mp hj2.2
    exact ⟨Finset.mem_univ _, (sc3_hit wfS3 e d k irows n d k).mpr ⟨h0, rfl, rfl⟩⟩
  · intro j3 hj3
    obtain ⟨e, d', k', rfl⟩ : ∃ (e : Fin E) (d' : Fin A) (k' : Fin B), j3 = ix3 e d' k' := ⟨j3 0, j3 1, j3 2, eq_ix3 j3⟩
    rw [Finset.mem_filter] at hj3
    obtain ⟨_, rfl, rfl⟩ := (sc3_hit wfS3 e d' k' irows n d k).mp hj3.2
    rfl
  · intro j2 hj2
    obtain ⟨e, c, rfl⟩ : ∃ (e : Fin E) (c : Fin C), j2 = ix2 e c := ⟨j2 0, j2 1, eq_ix2 j2⟩
    rw [Finset.mem_filter] at hj2
    obtain ⟨_, rfl⟩ := (sc2_hit wfS2 e c irows n (fl d k)).mp hj2.2
    rfl
  · intro j3 hj3
    obtain ⟨e, d', k', rfl⟩ : ∃ (e : Fin E) (d' : Fin A) (k' : Fin B), j3 = ix3 e d' k' := ⟨j3 0, j3 1, j3 2, eq_ix3 j3⟩
    rw [Finset.mem_filter] at hj3
    obtain ⟨_, rfl, rfl⟩ := (sc3_hit wfS3 e d' k' irows n d k).mp hj3.2
    show mulf (F := Ideal) (φ := φ) lv3 (Host.gather (gd3 N E A B wfG3) g3 icols) (ix3 e d' k')
      = mulf (F := Ideal) (φ := φ) lv2 (Host.gather (gd2 N E C wfG2) g2 icols) (ix2 e (fl d' k'))
    rw [mulf_apply, mulf_apply, gather3_apply hN, gather2_apply hN, hlv, hg]

end Main

end Cert.LibScatterFlat

end
-- ==== Proof.RowScatterFlat.lean ====
/-
  THE SPARSE ROW PRODUCT OF THE TWO PRINTED PROGRAMS, ENTRY BY ENTRY.

  Both programs end with out[r] = z[r] + the sum over the edges e with rows[e] = r of lv[e] * g[cols[e]], every node
  carrying 128 = 16 * 8 numbers. One program spells it over g : [100000, 16, 8] (a gather of [1, 16, 8] slices, a
  product, a scatter-add of [16, 8] windows), the other over g : [100000, 128] (a gather of [1, 128] rows, a product, a
  scatter-add of rows). This file reads the general statement (any extents, any relabelling of the block's
  coordinates) at the two programs' own dimension-number records and at row-major flattening (d, k) ↦ 8 * d + k:
  entry (n, d, k) of the first result is entry (n, 8 * d + k) of the second.
-/
import Idealize.ShloMosaic.PureOps.Ideal
import Idealize.ShloMosaic.Lib.ValueIdx
import proofs.«162771_j42356967473550_2_alg».proof.KernelIdeal
import proofs.«162771_j42356967473550_2_alg».proof.ReferenceIdeal
import proofs.«162771_j42356967473550_2_alg».proof.Proof.LibScatterFlat

noncomputable section

open scoped BigOperators
open Idealize.ShloMosaic Idealize.ShloMosaic.ValueIdx

namespace Cert.RowScatterFlat

variable [Cert.KernelIdeal.Facts₀] [Cert.ReferenceIdeal.Facts₀]

/-- The sparse row product of the two printed programs, entry by entry: with node features, edge values and initial
    values that agree along row-major flattening of the [16, 8] block into [128], entry (n, d, k) of the scatter-add over
    [100000, 16, 8] is entry (n, 8 * d + k) of the scatter-add over [100000, 128]. The row and column index arrays
    are arbitrary words: out-of-range rows are dropped and columns clamped by the same rule on both sides. -/
theorem scatter_gather_flat
    (g3 : Cert.KernelIdeal.S100000x16x8.Idx → EReal) (g2 : Cert.ReferenceIdeal.S100000x128.Idx → EReal)
    (hg : ∀ (n : Fin 100000) (d : Fin 16) (k : Fin 8), g3 (ix3 n d k) = g2 (ix2 n ⟨8 * d.val + k.val, by omega⟩))
    (lv3 : Cert.KernelIdeal.S1600000x16x8.Idx → EReal) (lv2 : Cert.ReferenceIdeal.S1600000x128.Idx → EReal)
    (hlv : ∀ (e : Fin 1600000) (d : Fin 16) (k : Fin 8),
      lv3 (ix3 e d k) = lv2 (ix2 e ⟨8 * d.val + k.val, by omega⟩))
    (z3 : Cert.KernelIdeal.S100000x16x8.Idx → EReal) (z2 : Cert.ReferenceIdeal.S100000x128.Idx → EReal)
    (hz : ∀ (n : Fin 100000) (d : Fin 16) (k : Fin 8), z3 (ix3 n d k) = z2 (ix2 n ⟨8 * d.val + k.val, by omega⟩))
    (irows icols : IVec Cert.KernelIdeal.S1600000x1 32)
    (n : Fin 100000) (d : Fin 16) (k : Fin 8) :
    Host.scatterAdd (F := Ideal) (φ := .f32) Cert.KernelIdeal.scatter_S100000x16x8_S1600000x1_S1600000x16x8_12_0_0_1 z3 irows
        (mulf (F := Ideal) (φ := .f32) lv3
          (Host.gather Cert.KernelIdeal.gather_S100000x16x8_S1600000x1_S1600000x16x8_12_0_n_n_0_1_1168 g3 icols))
        (ix3 n d k)
      = Host.scatterAdd (F := Ideal) (φ := .f32) Cert.ReferenceIdeal.scatter_S100000x128_S1600000x1_S1600000x128_1_0_0_1 z2 irows
        (mulf (F := Ideal) (φ := .f32) lv2
          (Host.gather Cert.ReferenceIdeal.gather_S100000x128_S1600000x1_S1600000x128_1_0_n_n_0_1_1128 g2 icols))
        (ix2 n ⟨8 * d.val + k.val, by omega⟩) :=
  Cert.LibScatterFlat.scatter_gather_flat_gen (fun d k => ⟨8 * d.val + k.val, by omega⟩)
    Cert.KernelIdeal.Facts₀.scatter_S100000x16x8_S1600000x1_S1600000x16x8_12_0_0_1_wf
    Cert.KernelIdeal.Facts₀.gather_S100000x16x8_S1600000x1_S1600000x16x8_12_0_n_n_0_1_1168_wf
    Cert.ReferenceIdeal.Facts₀.scatter_S100000x128_S1600000x1_S1600000x128_1_0_0_1_wf
    Cert.ReferenceIdeal.Facts₀.gather_S100000x128_S1600000x1_S1600000x128_1_0_n_n_0_1_1128_wf
    g3 g2 hg lv3 lv2 hlv z3 z2 hz irows icols n d k

end Cert.RowScatterFlat

end
-- ==== Proof.Bridge.lean ====
/-
  The two programs compute one function of the argument arrays.

  The kernel's program ends with its sparse product applied to `bank ltx eig` viewed as `[100000, 16, 8]`; the
  reference ends with the same sparse product applied to its flattened filter bank `[100000, 128]`, viewed as
  `[100000, 16, 8]` afterwards. Entry `(n, 8 d + k)` of both banks is `ltx (n, d)` times the `k`-th wavelet weight of
  node `n` — by repeated squaring in the kernel, by a real power in the reference, the same number
  (`Wavelet.wav_eq_wavPow`) — and a sparse product of `[16, 8]` slices at `(n, d, k)` is the sparse product of flat
  rows at `(n, 8 d + k)` (`RowScatterFlat.scatter_gather_flat`).
-/
import proofs.«162771_j42356967473550_2_alg».proof.Proof.KernelHost
import proofs.«162771_j42356967473550_2_alg».proof.Proof.KernelArray
import proofs.«162771_j42356967473550_2_alg».proof.Proof.RefMiddle
import proofs.«162771_j42356967473550_2_alg».proof.Proof.RowScatterFlat
import Idealize.ShloMosaic.Lib.Pipeline.Value
import Idealize.ShloMosaic.Lib.ValueIdx

set_option maxRecDepth 16384

noncomputable section

namespace Cert.Bridge

open Idealize.ShloMosaic Idealize.ShloMosaic.ValueIdx
open Cert.ReferenceIdeal.Read

/-- Row-major flattening of `[16, 8]`: the flat index of `(n, d, k)` is `(n, 8 d + k)`. -/
theorem flat_idx (n : Fin 100000) (d : Fin 16) (k : Fin 8) :
    idx_main_v98 (ix3 n d k) = ix2 n (⟨8 * d.val + k.val, by omega⟩ : Fin 128) := by
  have hn := n.isLt; have hd := d.isLt; have hk := k.isLt
  funext a; refine Fin.ext ?_
  match a with
  | ⟨0, _⟩ => show ((n.val * 16 + d.val) * 8 + k.val) / 128 = n.val; omega
  | ⟨1, _⟩ => show ((n.val * 16 + d.val) * 8 + k.val) % 128 = 8 * d.val + k.val; omega

/-- The kernel's bank, viewed as `[100000, 16, 8]`, and the reference's flat bank agree entry by entry. -/
theorem bank_agree (a0 : (⟨Cert.ReferenceIdeal.S100000x16, .f32⟩ : BufTy).Contents (Elt Ideal))
    (a1 a2 : (⟨Cert.ReferenceIdeal.S1600000, .i32⟩ : BufTy).Contents (Elt Ideal))
    (a3 : (⟨Cert.ReferenceIdeal.S1600000, .f32⟩ : BufTy).Contents (Elt Ideal)) (a4 : (⟨Cert.ReferenceIdeal.S100000, .f32⟩ : BufTy).Contents (Elt Ideal))
    (n : Fin 100000) (d : Fin 16) (k : Fin 8) :
    shapeCast Cert.KernelIdeal.S100000x16x8
        (Cert.KernelArray.bank (val_main_v68 (F := Ideal) a0 a1 a2 a3)
          (broadcastInDim Cert.KernelIdeal.S100000x1 ![0] Cert.KernelIdeal.Facts₀.bcast_S100000_S100000x1_0 a4))
        Cert.KernelIdeal.Facts₀.shapeCasts_S100000x128_S100000x16x8 (ix3 n d k)
      = val_main_v84 (F := Ideal) a0 a1 a2 a3 a4 (ix2 n (⟨8 * d.val + k.val, by omega⟩ : Fin 128)) := by
  have hn := n.isLt; have hd := d.isLt; have hk := k.isLt
  rw [shapeCast_apply _ _ (ix3 n d k) (ix2 n (⟨8 * d.val + k.val, by omega⟩ : Fin 128))
    (by rewrite [Shape.rowMajor_val_three, Shape.rowMajor_val_two]
        show n.val * 128 + (8 * d.val + k.val) = (n.val * 16 + d.val) * 8 + k.val; omega)]
  rw [Cert.RefMiddle.bank_entry, ← Cert.Wavelet.wav_eq_wavPow]
  unfold Cert.KernelArray.bank
  have hd' : (⟨(8 * d.val + k.val) / 8, by omega⟩ : Fin 16) = d := Fin.ext (by show (8 * d.val + k.val) / 8 = d.val; omega)
  have hk' : (8 * d.val + k.val) % 8 = k.val := by omega
  have he : broadcastInDim Cert.KernelIdeal.S100000x1 ![0] Cert.KernelIdeal.Facts₀.bcast_S100000_S100000x1_0 a4 (ix2 n (0 : Fin 1)) = a4 (ix1 n) :=
    broadcastInDim_apply _ _ a4 (ix2 n (0 : Fin 1)) (ix1 n) (fun a => match a with
      | ⟨0, _⟩ => by show n.val = if (100000 : Nat) = 1 then 0 else n.val; rw [if_neg (by decide)])
  show val_main_v68 (F := Ideal) a0 a1 a2 a3 (ix2 n (⟨(8 * d.val + k.val) / 8, by omega⟩ : Fin 16))
      * Cert.Wavelet.wav (broadcastInDim Cert.KernelIdeal.S100000x1 ![0] Cert.KernelIdeal.Facts₀.bcast_S100000_S100000x1_0 a4 (ix2 n (0 : Fin 1))) ((8 * d.val + k.val) % 8) = _
  rw [hd', hk', he]

/-- The scale factor `lv` broadcast over slices and over flat rows is the same number at matching entries. -/
theorem lv_agree (a3 : (⟨Cert.ReferenceIdeal.S1600000, .f32⟩ : BufTy).Contents (Elt Ideal)) (e : Fin 1600000) (d : Fin 16) (k : Fin 8) :
    broadcastInDim Cert.KernelIdeal.S1600000x16x8 ![0, 1, 2] Cert.KernelIdeal.Facts₀.bcast_S1600000x1x1_S1600000x16x8_0_1_2
        (broadcastInDim Cert.KernelIdeal.S1600000x1x1 ![0] Cert.KernelIdeal.Facts₀.bcast_S1600000_S1600000x1x1_0 a3) (ix3 e d k)
      = val_main_v93 (F := Ideal) a3 (ix2 e (⟨8 * d.val + k.val, by omega⟩ : Fin 128)) := by
  rw [val_main_v93_apply, val_main_v85_apply]
  rw [broadcastInDim_apply _ _ _ (ix3 e d k) (ix3 e (0 : Fin 1) (0 : Fin 1)) (fun a => match a with
      | ⟨0, _⟩ => by show e.val = if (1600000 : Nat) = 1 then 0 else e.val; rw [if_neg (by decide)]
      | ⟨1, _⟩ => by show 0 = if (1 : Nat) = 1 then 0 else d.val; rw [if_pos rfl]
      | ⟨2, _⟩ => by show 0 = if (1 : Nat) = 1 then 0 else k.val; rw [if_pos rfl])]
  rw [broadcastInDim_apply _ _ a3 (ix3 e (0 : Fin 1) (0 : Fin 1)) (ix1 e) (fun a => match a with
      | ⟨0, _⟩ => by show e.val = if (1600000 : Nat) = 1 then 0 else e.val; rw [if_neg (by decide)])]
  exact congrArg a3 (funext fun a => match a with | ⟨0, _⟩ => rfl)

/-- Both accumulators start from the zero word everywhere. -/
theorem zero_agree (n : Fin 100000) (d : Fin 16) (k : Fin 8) :
    broadcastInDim Cert.KernelIdeal.S100000x16x8 ![] Cert.KernelIdeal.Facts₀.bcast_S_S100000x16x8 (constant (F := Ideal) Cert.KernelIdeal.S_ .f32 0x00000000#32) (ix3 n d k)
      = val_main_v95 (F := Ideal) (ix2 n (⟨8 * d.val + k.val, by omega⟩ : Fin 128)) := by
  rw [val_main_v95_apply, val_main_cst_23_apply]
  rw [broadcastInDim_apply _ _ _ (ix3 n d k) (fun a => a.elim0) (fun a => a.elim0)]
  rfl

/-- THE RESULT: the kernel's tail of its bank is the reference's last stage, as functions of the arguments. -/
theorem result_eq (a0 : (⟨Cert.ReferenceIdeal.S100000x16, .f32⟩ : BufTy).Contents (Elt Ideal))
    (a1 a2 : (⟨Cert.ReferenceIdeal.S1600000, .i32⟩ : BufTy).Contents (Elt Ideal))
    (a3 : (⟨Cert.ReferenceIdeal.S1600000, .f32⟩ : BufTy).Contents (Elt Ideal)) (a4 : (⟨Cert.ReferenceIdeal.S100000, .f32⟩ : BufTy).Contents (Elt Ideal)) :
    Cert.KernelHost.tail
        (Cert.KernelArray.bank (val_main_v68 (F := Ideal) a0 a1 a2 a3)
          (broadcastInDim Cert.KernelIdeal.S100000x1 ![0] Cert.KernelIdeal.Facts₀.bcast_S100000_S100000x1_0 a4)) a1 a2 a3
      = val_main_v98 (F := Ideal) a0 a1 a2 a3 a4 := by
  funext i
  obtain ⟨n, d, k, rfl⟩ : ∃ (n : Fin 100000) (d : Fin 16) (k : Fin 8), i = ix3 n d k := ⟨i 0, i 1, i 2, eq_ix3 i⟩
  rw [val_main_v98_apply, flat_idx]
  unfold val_main_v97 val_main_v94 val_main_v92 Cert.KernelHost.tail
  exact Cert.RowScatterFlat.scatter_gather_flat _ _ (bank_agree a0 a1 a2 a3 a4) _ _ (lv_agree a3) _ _ zero_agree _ _ n d k

end Cert.Bridge

end
-- ==== Proof.lean ====
/-
  The proof of `Cert.Claim`: a spectral wavelet filter on a graph — two sparse products with a dense stage between
  them — as a tiled kernel and as a plain array program.

  Both programs first form `ltx = Lᵀ x` by the same gather, scaling and scatter-add of the same arrays. The dense stage
  builds, per node `n` with eigenvalue `e`, eight wavelet weights `b^(2^k) - b^(2^(k+1))` with `b = exp (-e)`, and
  the bank `g (n, 8 d + k) = ltx (n, d) * weight k`. The kernel takes the powers by squaring `b` eight times, in ten
  row blocks of 10000 nodes; the reference raises `b` to the float exponents `2^k`. Over the extended reals these are
  the same numbers for every `e` (for a real `e` a real power at a natural exponent is the iterated product; at the
  two infinities both ladders are constant). The final sparse product `L g` is taken by the kernel's program on
  `[16, 8]` slices and by the reference on flat rows of 128, reshaped afterwards: the same sum, entry by entry.

  The frames are the generated ones (the reference's is its generated run with the result dropped); nothing was
  rewritten when the kernel was idealized, so that conjunct is `True`; the algebraic conjunct is `algebraic` below.
-/
import proofs.«162771_j42356967473550_2_alg».proof.Defs
import proofs.«162771_j42356967473550_2_alg».proof.Proof.Gen.Kernel
import proofs.«162771_j42356967473550_2_alg».proof.Proof.Gen.Kernel.Skeleton
import proofs.«162771_j42356967473550_2_alg».proof.Proof.Gen.Kernel.Launch
import proofs.«162771_j42356967473550_2_alg».proof.Proof.Gen.Kernel.Points
import proofs.«162771_j42356967473550_2_alg».proof.Proof.Gen.Kernel.Frame
import proofs.«162771_j42356967473550_2_alg».proof.Proof.Gen.KernelIdeal
import proofs.«162771_j42356967473550_2_alg».proof.Proof.Gen.KernelIdeal.Skeleton
import proofs.«162771_j42356967473550_2_alg».proof.Proof.Gen.KernelIdeal.Launch
import proofs.«162771_j42356967473550_2_alg».proof.Proof.Gen.KernelIdeal.Points
import proofs.«162771_j42356967473550_2_alg».proof.Proof.Gen.KernelIdeal.Frame
import proofs.«162771_j42356967473550_2_alg».proof.Proof.Gen.ReferenceIdeal
import proofs.«162771_j42356967473550_2_alg».proof.Proof.Gen.Pre_finite_inputs
import proofs.«162771_j42356967473550_2_alg».proof.Proof.Gen.ReferenceIdeal.Run
import proofs.«162771_j42356967473550_2_alg».proof.Proof.Gen.ReferenceIdeal.Read
import proofs.«162771_j42356967473550_2_alg».proof.Proof.BlockEntry
import proofs.«162771_j42356967473550_2_alg».proof.Proof.KernelArray
import proofs.«162771_j42356967473550_2_alg».proof.Proof.KernelHost
import proofs.«162771_j42356967473550_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

section KernelValue

open Cert.KernelIdeal Cert.KernelIdeal.Gen

variable (m : (ℓ : Loc nD τ sig) → Buf (Elt Ideal) ℓ)

/-- What the kernel's program leaves in its result buffer, as the reference's last stage of the same arguments: the
    region's output array is `bank` of the two arrays it reads, those are the reference's first stage and the
    eigenvalue column, and the lines after the region are the sparse product of slices. -/
theorem kernel_value (c : Dev nD) :
    Pipeline.afterTail₀ cfgs (dats m) 0 (V0 m) [hostOps1] c main_v28
      = Cert.ReferenceIdeal.Read.val_main_v98 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  have e0 : V m c (Pipeline.arrRef spec0 0) = Cert.ReferenceIdeal.Read.val_main_v68 (F := Ideal) (m ((c : Thread nD τ).loc main_arg0))
      (m ((c : Thread nD τ).loc main_arg1)) (m ((c : Thread nD τ).loc main_arg2)) (m ((c : Thread nD τ).loc main_arg3)) :=
    Cert.KernelHost.ltx_eq m c
  have e1 : V m c (Pipeline.arrRef spec0 1) = broadcastInDim S100000x1 ![0] Facts₀.bcast_S100000_S100000x1_0 (m ((c : Thread nD τ).loc main_arg4)) :=
    Cert.KernelHost.eig_eq m c
  rw [Cert.KernelHost.tail_eq, Cert.KernelArray.final m Cert.BlockEntry.out_entry c, e0, e1]
  exact Cert.Bridge.result_eq _ _ _ _ _

end KernelValue

/-- At the exact-real instance both programs, run from memories agreeing on the arguments, end with the same result
    array — the reference's last stage of the kernel's arguments — and unchanged arguments. -/
theorem algebraic : Cert.algebraic_KernelIdeal_ReferenceIdeal := by
  intro m ρ m' ρ' _ hagree
  refine ⟨fun c => Cert.ReferenceIdeal.Read.val_main_v98 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c =>
      ⟨((h c).2 Cert.KernelIdeal.main_v28 (Pipeline.mem_restRefs_of Cert.KernelIdeal.main_v28 (by decide) (by decide))).trans (kernel_value m c),
        ((h c).2 Cert.KernelIdeal.main_arg0 (Pipeline.mem_restRefs_of Cert.KernelIdeal.main_arg0 (by decide) (by decide))).trans (Cert.KernelIdeal.Gen.W_main_arg0 m (Cert.KernelIdeal.Gen.dats m) c),
        ((h c).2 Cert.KernelIdeal.main_arg1 (Pipeline.mem_restRefs_of Cert.KernelIdeal.main_arg1 (by decide) (by decide))).trans (Cert.KernelIdeal.Gen.W_main_arg1 m (Cert.KernelIdeal.Gen.dats m) c),
        ((h c).2 Cert.KernelIdeal.main_arg2 (Pipeline.mem_restRefs_of Cert.KernelIdeal.main_arg2 (by decide) (by decide))).trans (Cert.KernelIdeal.Gen.W_main_arg2 m (Cert.KernelIdeal.Gen.dats m) c),
        ((h c).2 Cert.KernelIdeal.main_arg3 (Pipeline.mem_restRefs_of Cert.KernelIdeal.main_arg3 (by decide) (by decide))).trans (Cert.KernelIdeal.Gen.W_main_arg3 m (Cert.KernelIdeal.Gen.dats m) c),
        ((h c).2 Cert.KernelIdeal.main_arg4 (Pipeline.mem_restRefs_of Cert.KernelIdeal.main_arg4 (by decide) (by decide))).trans (Cert.KernelIdeal.Gen.W_main_arg4 m (Cert.KernelIdeal.Gen.dats m) c)⟩)
      (Cert.KernelIdeal.Gen.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v98_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
